-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v93)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v93) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v96) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S64x128 : Shape := ⟨2, ![64, 128]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_v13 : IVec S_ 1) (main_v16 : IVec S64x128 1) : IVec S_ 1 :=
  let main_c_5 : IVec S_ 1 := constantI S_ 1 1#1
  let main_v17 : IVec S_ 1 := (fun x v => Host.reduce IntOp.andi x v reducesTo_S64x128_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S100000x128 .f32) (main_arg1 : IVec S2x1600000 32) (main_arg2 : FVec F S128x128 .f32) (main_arg3 : FVec F S128 .f32) (main_arg4 : FVec F S64x128 .f32) (main_arg5 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S64x128 .f32 := Host.absf main_arg4
  let main_cst_4 : FVec F S_ .f32 := constant S_ .f32 0x7F800000#32
  let main_v15 : FVec F S64x128 .f32 := broadcastInDim S64x128 ![] bcast_S_S64x128 main_cst_4
  let main_v16 : IVec S64x128 1 := cmpf .olt main_v14 main_v15
  fn_part1 (F := F) main_arg5 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S64x128 : Shape := ⟨2, ![64, 128]⟩
abbrev S64 : Shape := ⟨1, ![64]⟩
abbrev S128x64 : Shape := ⟨2, ![128, 64]⟩
abbrev S5000x128 : Shape := ⟨2, ![5000, 128]⟩
abbrev S1x1600000 : Shape := ⟨2, ![1, 1600000]⟩
abbrev S1600000 : Shape := ⟨1, ![1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S100000x64 : Shape := ⟨2, ![100000, 64]⟩
abbrev S5000x64 : Shape := ⟨2, ![5000, 64]⟩
abbrev S1700000x64 : Shape := ⟨2, ![1700000, 64]⟩
abbrev S1x64 : Shape := ⟨2, ![1, 64]⟩

abbrev nBuf : Space → Nat
  | .hbm => 126
  | .vmem => 20
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S64x128, .f32⟩
  | .hbm, ⟨5, _⟩ => ⟨S64, .f32⟩
  | .hbm, ⟨6, _⟩ => ⟨S128x128, .f32⟩
  | .hbm, ⟨7, _⟩ => ⟨S128x64, .f32⟩
  | .hbm, ⟨8, _⟩ => ⟨S100000x128, .f32⟩
  | .hbm, ⟨9, _⟩ => ⟨S1x1600000, .i32⟩
  | .hbm, ⟨10, _⟩ => ⟨S1600000, .i32⟩
  | .hbm, ⟨11, _⟩ => ⟨S1x1600000, .i32⟩
  | .hbm, ⟨12, _⟩ => ⟨S1600000, .i32⟩
  | .hbm, ⟨13, _⟩ => ⟨S100000, .i32⟩
  | .hbm, ⟨14, _⟩ => ⟨S1700000, .i32⟩
  | .hbm, ⟨15, _⟩ => ⟨S1700000, .i32⟩
  | .hbm, ⟨16, _⟩ => ⟨S_, .f32⟩
  | .hbm, ⟨17, _⟩ => ⟨S1700000, .f32⟩
  | .hbm, ⟨18, _⟩ => ⟨S_, .f32⟩
  | .hbm, ⟨19, _⟩ => ⟨S100000, .f32⟩
  | .hbm, ⟨20, _⟩ => ⟨S1700000x1, .i32⟩
  | .hbm, ⟨21, _⟩ => ⟨S100000, .f32⟩
  | .hbm, ⟨22, _⟩ => ⟨S_, .f32⟩
  | .hbm, ⟨23, _⟩ => ⟨S100000, .f32⟩
  | .hbm, ⟨24, _⟩ => ⟨S100000, .i1⟩
  | .hbm, ⟨25, _⟩ => ⟨S100000, .f32⟩
  | .hbm, ⟨26, _⟩ => ⟨S_, .f32⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S_, .i32⟩
  | .hbm, ⟨31, _⟩ => ⟨S1700000, .i32⟩
  | .hbm, ⟨32, _⟩ => ⟨S1700000, .i1⟩
  | .hbm, ⟨33, _⟩ => ⟨S_, .i32⟩
  | .hbm, ⟨34, _⟩ => ⟨S1700000, .i32⟩
  | .hbm, ⟨35, _⟩ => ⟨S1700000, .i32⟩
  | .hbm, ⟨36, _⟩ => ⟨S1700000, .i32⟩
  | .hbm, ⟨37, _⟩ => ⟨S1700000x1, .i32⟩
  | .hbm, ⟨38, _⟩ => ⟨S1700000, .f32⟩
  | .hbm, ⟨39, _⟩ => ⟨S_, .i32⟩
  | .hbm, ⟨40, _⟩ => ⟨S1700000, .i32⟩
  | .hbm, ⟨41, _⟩ => ⟨S1700000, .i1⟩
  | .hbm, ⟨42, _⟩ => ⟨S_, .i32⟩
  | .hbm, ⟨43, _⟩ => ⟨S1700000, .i32⟩
  | .hbm, ⟨44, _⟩ => ⟨S1700000, .i32⟩
  | .hbm, ⟨45, _⟩ => ⟨S1700000, .i32⟩
  | .hbm, ⟨46, _⟩ => ⟨S1700000x1, .i32⟩
  | .hbm, ⟨47, _⟩ => ⟨S1700000, .f32⟩
  | .hbm, ⟨48, _⟩ => ⟨S1700000, .f32⟩
  | .hbm, ⟨49, _⟩ => ⟨S_, .i32⟩
  | .hbm, ⟨50, _⟩ => ⟨S1700000, .i32⟩
  | .hbm, ⟨51, _⟩ => ⟨S1700000, .i1⟩
  | .hbm, ⟨52, _⟩ => ⟨S_, .i32⟩
  | .hbm, ⟨53, _⟩ => ⟨S1700000, .i32⟩
  | .hbm, ⟨54, _⟩ => ⟨S1700000, .i32⟩
  | .hbm, ⟨55, _⟩ => ⟨S1700000, .i32⟩
  | .hbm, ⟨56, _⟩ => ⟨S1700000x1, .i32⟩
  | .hbm, ⟨57, _⟩ => ⟨S1700000x128, .f32⟩
  | .hbm, ⟨58, _⟩ => ⟨S1700000x1, .f32⟩
  | .hbm, ⟨59, _⟩ => ⟨S1700000x128, .f32⟩
  | .hbm, ⟨60, _⟩ => ⟨S1700000x128, .f32⟩
  | .hbm, ⟨61, _⟩ => ⟨S_, .f32⟩
  | .hbm, ⟨62, _⟩ => ⟨S100000x128, .f32⟩
  | .hbm, ⟨63, _⟩ => ⟨S1700000x1, .i32⟩
  | .hbm, ⟨64, _⟩ => ⟨S100000x128, .f32⟩
  | .hbm, ⟨65, _⟩ => ⟨S1x128, .f32⟩
  | .hbm, ⟨66, _⟩ => ⟨S100000x128, .f32⟩
  | .hbm, ⟨67, _⟩ => ⟨S100000x64, .f32⟩
  | .hbm, ⟨68, _⟩ => ⟨S1x1600000, .i32⟩
  | .hbm, ⟨69, _⟩ => ⟨S1600000, .i32⟩
  | .hbm, ⟨70, _⟩ => ⟨S1x1600000, .i32⟩
  | .hbm, ⟨71, _⟩ => ⟨S1600000, .i32⟩
  | .hbm, ⟨72, _⟩ => ⟨S100000, .i32⟩
  | .hbm, ⟨73, _⟩ => ⟨S1700000, .i32⟩
  | .hbm, ⟨74, _⟩ => ⟨S1700000, .i32⟩
  | .hbm, ⟨75, _⟩ => ⟨S_, .f32⟩
  | .hbm, ⟨76, _⟩ => ⟨S1700000, .f32⟩
  | .hbm, ⟨77, _⟩ => ⟨S_, .f32⟩
  | .hbm, ⟨78, _⟩ => ⟨S100000, .f32⟩
  | .hbm, ⟨79, _⟩ => ⟨S1700000x1, .i32⟩
  | .hbm, ⟨80, _⟩ => ⟨S100000, .f32⟩
  | .hbm, ⟨81, _⟩ => ⟨S_, .f32⟩
  | .hbm, ⟨82, _⟩ => ⟨S100000, .f32⟩
  | .hbm, ⟨83, _⟩ => ⟨S100000, .i1⟩
  | .hbm, ⟨84, _⟩ => ⟨S100000, .f32⟩
  | .hbm, ⟨85, _⟩ => ⟨S_, .f32⟩
  | .hbm, ⟨86, _⟩ => ⟨S_, .f32⟩
  | .hbm, ⟨87, _⟩ => ⟨S100000, .f32⟩
  | .hbm, ⟨88, _⟩ => ⟨S100000, .f32⟩
  | .hbm, ⟨89, _⟩ => ⟨S_, .i32⟩
  | .hbm, ⟨90, _⟩ => ⟨S1700000, .i32⟩
  | .hbm, ⟨91, _⟩ => ⟨S1700000, .i1⟩
  | .hbm, ⟨92, _⟩ => ⟨S_, .i32⟩
  | .hbm, ⟨93, _⟩ => ⟨S1700000, .i32⟩
  | .hbm, ⟨94, _⟩ => ⟨S1700000, .i32⟩
  | .hbm, ⟨95, _⟩ => ⟨S1700000, .i32⟩
  | .hbm, ⟨96, _⟩ => ⟨S1700000x1, .i32⟩
  | .hbm, ⟨97, _⟩ => ⟨S1700000, .f32⟩
  | .hbm, ⟨98, _⟩ => ⟨S_, .i32⟩
  | .hbm, ⟨99, _⟩ => ⟨S1700000, .i32⟩
  | .hbm, ⟨100, _⟩ => ⟨S1700000, .i1⟩
  | .hbm, ⟨101, _⟩ => ⟨S_, .i32⟩
  | .hbm, ⟨102, _⟩ => ⟨S1700000, .i32⟩
  | .hbm, ⟨103, _⟩ => ⟨S1700000, .i32⟩
  | .hbm, ⟨104, _⟩ => ⟨S1700000, .i32⟩
  | .hbm, ⟨105, _⟩ => ⟨S1700000x1, .i32⟩
  | .hbm, ⟨106, _⟩ => ⟨S1700000, .f32⟩
  | .hbm, ⟨107, _⟩ => ⟨S1700000, .f32⟩
  | .hbm, ⟨108, _⟩ => ⟨S_, .i32⟩
  | .hbm, ⟨109, _⟩ => ⟨S1700000, .i32⟩
  | .hbm, ⟨110, _⟩ => ⟨S1700000, .i1⟩
  | .hbm, ⟨111, _⟩ => ⟨S_, .i32⟩
  | .hbm, ⟨112, _⟩ => ⟨S1700000, .i32⟩
  | .hbm, ⟨113, _⟩ => ⟨S1700000, .i32⟩
  | .hbm, ⟨114, _⟩ => ⟨S1700000, .i32⟩
  | .hbm, ⟨115, _⟩ => ⟨S1700000x1, .i32⟩
  | .hbm, ⟨116, _⟩ => ⟨S1700000x64, .f32⟩
  | .hbm, ⟨117, _⟩ => ⟨S1700000x1, .f32⟩
  | .hbm, ⟨118, _⟩ => ⟨S1700000x64, .f32⟩
  | .hbm, ⟨119, _⟩ => ⟨S1700000x64, .f32⟩
  | .hbm, ⟨120, _⟩ => ⟨S_, .f32⟩
  | .hbm, ⟨121, _⟩ => ⟨S100000x64, .f32⟩
  | .hbm, ⟨122, _⟩ => ⟨S1700000x1, .i32⟩
  | .hbm, ⟨123, _⟩ => ⟨S100000x64, .f32⟩
  | .hbm, ⟨124, _⟩ => ⟨S1x64, .f32⟩
  | .hbm, ⟨125, _⟩ => ⟨S100000x64, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S128x64, .f32⟩
  | .local _ .vmem, ⟨13, _⟩ => ⟨S5000x64, .f32⟩
  | .local _ .vmem, ⟨14, _⟩ => ⟨S5000x64, .f32⟩
  | .local _ .vmem, ⟨15, _⟩ => ⟨S5000x64, .f32⟩
  | .local _ .vmem, ⟨16, _⟩ => ⟨S5000x64, .f32⟩
  | .local _ .vmem, ⟨17, _⟩ => ⟨S1x64, .f32⟩
  | .local _ .vmem, ⟨18, _⟩ => ⟨S5000x64, .f32⟩
  | .local _ .vmem, ⟨19, _⟩ => ⟨S5000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst : Ref sig .tc := ⟨.hbm, 16, rfl⟩
abbrev main_v10 : Ref sig .tc := ⟨.hbm, 17, rfl⟩
abbrev main_cst_0 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_2 : Ref sig .tc := ⟨.hbm, 26, rfl⟩
abbrev main_call0_v0 : Ref sig .tc := ⟨.hbm, 27, rfl⟩
abbrev main_call0_v1 : Ref sig .tc := ⟨.hbm, 28, rfl⟩
abbrev main_v17 : Ref sig .tc := ⟨.hbm, 29, rfl⟩
abbrev main_c : Ref sig .tc := ⟨.hbm, 30, rfl⟩
abbrev main_v18 : Ref sig .tc := ⟨.hbm, 31, rfl⟩
abbrev main_v19 : Ref sig .tc := ⟨.hbm, 32, rfl⟩
abbrev main_c_3 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_c_4 : Ref sig .tc := ⟨.hbm, 39, rfl⟩
abbrev main_v25 : Ref sig .tc := ⟨.hbm, 40, rfl⟩
abbrev main_v26 : Ref sig .tc := ⟨.hbm, 41, rfl⟩
abbrev main_c_5 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_c_6 : Ref sig .tc := ⟨.hbm, 49, rfl⟩
abbrev main_v33 : Ref sig .tc := ⟨.hbm, 50, rfl⟩
abbrev main_v34 : Ref sig .tc := ⟨.hbm, 51, rfl⟩
abbrev main_c_7 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_8 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_cst_9 : Ref sig .tc := ⟨.hbm, 75, rfl⟩
abbrev main_v56 : Ref sig .tc := ⟨.hbm, 76, rfl⟩
abbrev main_cst_10 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_cst_11 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_cst_12 : Ref sig .tc := ⟨.hbm, 85, rfl⟩
abbrev main_call1_v0 : Ref sig .tc := ⟨.hbm, 86, rfl⟩
abbrev main_call1_v1 : Ref sig .tc := ⟨.hbm, 87, rfl⟩
abbrev main_v63 : Ref sig .tc := ⟨.hbm, 88, rfl⟩
abbrev main_c_13 : Ref sig .tc := ⟨.hbm, 89, rfl⟩
abbrev main_v64 : Ref sig .tc := ⟨.hbm, 90, rfl⟩
abbrev main_v65 : Ref sig .tc := ⟨.hbm, 91, rfl⟩
abbrev main_c_14 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_c_15 : Ref sig .tc := ⟨.hbm, 98, rfl⟩
abbrev main_v71 : Ref sig .tc := ⟨.hbm, 99, rfl⟩
abbrev main_v72 : Ref sig .tc := ⟨.hbm, 100, rfl⟩
abbrev main_c_16 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_c_17 : Ref sig .tc := ⟨.hbm, 108, rfl⟩
abbrev main_v79 : Ref sig .tc := ⟨.hbm, 109, rfl⟩
abbrev main_v80 : Ref sig .tc := ⟨.hbm, 110, rfl⟩
abbrev main_c_18 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_cst_19 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  transposes_S128x128_S128x128_1_0 : S128x128.Transposes [1, 0] S128x128
  transposes_S64x128_S128x64_1_0 : S64x128.Transposes [1, 0] S128x64
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S5000x64_S5000x64_0_0 : ∀ a, (![0, 0] : Fin 2 → Nat) a + S5000x64.size a ≤ S5000x64.size a
  h_S5000x64 : 0 < S5000x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  shapeCasts_S64_S1x64 : S64.ShapeCasts S1x64
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  dot_S5000x128_S128x128_S5000x128_1_0_0_1_n_n_wf : DotDims.WF S5000x128 S128x128 S5000x128 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S5000x128_S128x64_S5000x64_1_0_0_1_n_n_wf : DotDims.WF S5000x128 S128x64 S5000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S100000x128.size a
  hwx1_2 : ∀ i : grid1.Coords, EltTy.bits .f32 = 32 ∨ (Rect.block (s := S100000x128) S5000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x64.size a ≤ S128x64.size a
  hwx2_1 : ∀ i : grid2.Coords, EltTy.bits .f32 = 32 ∨ (Rect.block (s := S128x64) S128x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x64.size a ≤ S100000x64.size a
  hwx2_2 : ∀ i : grid2.Coords, EltTy.bits .f32 = 32 ∨ (Rect.block (s := S100000x64) S5000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S100000x64.size a
  hwx3_0 : ∀ i : grid3.Coords, EltTy.bits .f32 = 32 ∨ (Rect.block (s := S100000x64) S5000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x64.size a ≤ S100000x64.size a
  hwx3_2 : ∀ i : grid3.Coords, EltTy.bits .f32 = 32 ∨ (Rect.block (s := S100000x64) S5000x64.size (cc3_transform_2 i) (hinb3_2 i)).WholeWords (EltTy.packing .f32)

variable [Facts₀]

def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v45) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v46) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v47) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v47) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v1) S128x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v48) S5000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v91) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v92) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v93) S5000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S64x128 : Shape := ⟨2, ![64, 128]⟩
abbrev S64 : Shape := ⟨1, ![64]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S128x64 : Shape := ⟨2, ![128, 64]⟩
abbrev S100000x64 : Shape := ⟨2, ![100000, 64]⟩
abbrev S1700000x64 : Shape := ⟨2, ![1700000, 64]⟩
abbrev S1x64 : Shape := ⟨2, ![1, 64]⟩

abbrev nBuf : Space → Nat
  | .hbm => 131
  | .vmem => 0
  | .smem => 0
  | _ => 0

abbrev hbmTy0_0 (i : Nat) : BufTy := match i % 128 with
  | 0 => ⟨S100000x128, .f32⟩
  | 1 => ⟨S2x1600000, .i32⟩
  | 2 => ⟨S128x128, .f32⟩
  | 3 => ⟨S128, .f32⟩
  | 4 => ⟨S64x128, .f32⟩
  | 5 => ⟨S64, .f32⟩
  | 6 => ⟨S128x128, .f32⟩
  | 7 => ⟨S100000x128, .f32⟩
  | 8 => ⟨S100000, .i32⟩
  | 9 => ⟨S1x1600000, .i32⟩
  | 10 => ⟨S1600000, .i32⟩
  | 11 => ⟨S1700000, .i32⟩
  | 12 => ⟨S1x1600000, .i32⟩
  | 13 => ⟨S1600000, .i32⟩
  | 14 => ⟨S1700000, .i32⟩
  | 15 => ⟨S_, .f32⟩
  | 16 => ⟨S1700000, .f32⟩
  | 17 => ⟨S_, .f32⟩
  | 18 => ⟨S100000, .f32⟩
  | 19 => ⟨S1700000x1, .i32⟩
  | 20 => ⟨S100000, .f32⟩
  | 21 => ⟨S_, .f32⟩
  | 22 => ⟨S100000, .f32⟩
  | 23 => ⟨S100000, .i1⟩
  | 24 => ⟨S100000, .f32⟩
  | 25 => ⟨S_, .f32⟩
  | 26 => ⟨S_, .f32⟩
  | 27 => ⟨S100000, .f32⟩
  | 28 => ⟨S100000, .f32⟩
  | 29 => ⟨S_, .i32⟩
  | 30 => ⟨S1700000, .i32⟩
  | 31 => ⟨S1700000, .i1⟩
  | 32 => ⟨S_, .i32⟩
  | 33 => ⟨S1700000, .i32⟩
  | 34 => ⟨S1700000, .i32⟩
  | 35 => ⟨S1700000, .i32⟩
  | 36 => ⟨S1700000x1, .i32⟩
  | 37 => ⟨S1700000, .f32⟩
  | 38 => ⟨S_, .i32⟩
  | 39 => ⟨S1700000, .i32⟩
  | 40 => ⟨S1700000, .i1⟩
  | 41 => ⟨S_, .i32⟩
  | 42 => ⟨S1700000, .i32⟩
  | 43 => ⟨S1700000, .i32⟩
  | 44 => ⟨S1700000, .i32⟩
  | 45 => ⟨S1700000x1, .i32⟩
  | 46 => ⟨S1700000, .f32⟩
  | 47 => ⟨S1700000, .f32⟩
  | 48 => ⟨S_, .i32⟩
  | 49 => ⟨S1700000, .i32⟩
  | 50 => ⟨S1700000, .i1⟩
  | 51 => ⟨S_, .i32⟩
  | 52 => ⟨S1700000, .i32⟩
  | 53 => ⟨S1700000, .i32⟩
  | 54 => ⟨S1700000, .i32⟩
  | 55 => ⟨S1700000x1, .i32⟩
  | 56 => ⟨S1700000x128, .f32⟩
  | 57 => ⟨S1700000x1, .f32⟩
  | 58 => ⟨S1700000x128, .f32⟩
  | 59 => ⟨S1700000x128, .f32⟩
  | 60 => ⟨S_, .f32⟩
  | 61 => ⟨S100000x128, .f32⟩
  | 62 => ⟨S1700000x1, .i32⟩
  | 63 => ⟨S100000x128, .f32⟩
  | 64 => ⟨S1x128, .f32⟩
  | 65 => ⟨S100000x128, .f32⟩
  | 66 => ⟨S100000x128, .f32⟩
  | 67 => ⟨S_, .f32⟩
  | 68 => ⟨S100000x128, .f32⟩
  | 69 => ⟨S100000x128, .f32⟩
  | 70 => ⟨S128x64, .f32⟩
  | 71 => ⟨S100000x64, .f32⟩
  | 72 => ⟨S100000, .i32⟩
  | 73 => ⟨S1x1600000, .i32⟩
  | 74 => ⟨S1600000, .i32⟩
  | 75 => ⟨S1700000, .i32⟩
  | 76 => ⟨S1x1600000, .i32⟩
  | 77 => ⟨S1600000, .i32⟩
  | 78 => ⟨S1700000, .i32⟩
  | 79 => ⟨S_, .f32⟩
  | 80 => ⟨S1700000, .f32⟩
  | 81 => ⟨S_, .f32⟩
  | 82 => ⟨S100000, .f32⟩
  | 83 => ⟨S1700000x1, .i32⟩
  | 84 => ⟨S100000, .f32⟩
  | 85 => ⟨S_, .f32⟩
  | 86 => ⟨S100000, .f32⟩
  | 87 => ⟨S100000, .i1⟩
  | 88 => ⟨S100000, .f32⟩
  | 89 => ⟨S_, .f32⟩
  | 90 => ⟨S_, .f32⟩
  | 91 => ⟨S100000, .f32⟩
  | 92 => ⟨S100000, .f32⟩
  | 93 => ⟨S_, .i32⟩
  | 94 => ⟨S1700000, .i32⟩
  | 95 => ⟨S1700000, .i1⟩
  | 96 => ⟨S_, .i32⟩
  | 97 => ⟨S1700000, .i32⟩
  | 98 => ⟨S1700000, .i32⟩
  | 99 => ⟨S1700000, .i32⟩
  | 100 => ⟨S1700000x1, .i32⟩
  | 101 => ⟨S1700000, .f32⟩
  | 102 => ⟨S_, .i32⟩
  | 103 => ⟨S1700000, .i32⟩
  | 104 => ⟨S1700000, .i1⟩
  | 105 => ⟨S_, .i32⟩
  | 106 => ⟨S1700000, .i32⟩
  | 107 => ⟨S1700000, .i32⟩
  | 108 => ⟨S1700000, .i32⟩
  | 109 => ⟨S1700000x1, .i32⟩
  | 110 => ⟨S1700000, .f32⟩
  | 111 => ⟨S1700000, .f32⟩
  | 112 => ⟨S_, .i32⟩
  | 113 => ⟨S1700000, .i32⟩
  | 114 => ⟨S1700000, .i1⟩
  | 115 => ⟨S_, .i32⟩
  | 116 => ⟨S1700000, .i32⟩
  | 117 => ⟨S1700000, .i32⟩
  | 118 => ⟨S1700000, .i32⟩
  | 119 => ⟨S1700000x1, .i32⟩
  | 120 => ⟨S1700000x64, .f32⟩
  | 121 => ⟨S1700000x1, .f32⟩
  | 122 => ⟨S1700000x64, .f32⟩
  | 123 => ⟨S1700000x64, .f32⟩
  | 124 => ⟨S_, .f32⟩
  | 125 => ⟨S100000x64, .f32⟩
  | 126 => ⟨S1700000x1, .i32⟩
  | 127 => ⟨S100000x64, .f32⟩
  | _ => ⟨S100000x128, .f32⟩

abbrev hbmTy0_1 (i : Nat) : BufTy := match i % 128 with
  | 0 => ⟨S1x64, .f32⟩
  | 1 => ⟨S100000x64, .f32⟩
  | 2 => ⟨S100000x64, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_v9 : Ref sig .tc := ⟨.hbm, 16, rfl⟩
abbrev main_cst_0 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v16 : Ref sig .tc := ⟨.hbm, 28, rfl⟩
abbrev main_c : Ref sig .tc := ⟨.hbm, 29, rfl⟩
abbrev main_v17 : Ref sig .tc := ⟨.hbm, 30, rfl⟩
abbrev main_v18 : Ref sig .tc := ⟨.hbm, 31, rfl⟩
abbrev main_c_3 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_c_4 : Ref sig .tc := ⟨.hbm, 38, rfl⟩
abbrev main_v24 : Ref sig .tc := ⟨.hbm, 39, rfl⟩
abbrev main_v25 : Ref sig .tc := ⟨.hbm, 40, rfl⟩
abbrev main_c_5 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_c_6 : Ref sig .tc := ⟨.hbm, 48, rfl⟩
abbrev main_v32 : Ref sig .tc := ⟨.hbm, 49, rfl⟩
abbrev main_v33 : Ref sig .tc := ⟨.hbm, 50, rfl⟩
abbrev main_c_7 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_cst_8 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_call1_cst : Ref sig .tc := ⟨.hbm, 67, rfl⟩
abbrev main_call1_v0 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_cst_9 : Ref sig .tc := ⟨.hbm, 79, rfl⟩
abbrev main_v58 : Ref sig .tc := ⟨.hbm, 80, rfl⟩
abbrev main_cst_10 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_cst_11 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_cst_12 : Ref sig .tc := ⟨.hbm, 89, rfl⟩
abbrev main_call2_v0 : Ref sig .tc := ⟨.hbm, 90, rfl⟩
abbrev main_call2_v1 : Ref sig .tc := ⟨.hbm, 91, rfl⟩
abbrev main_v65 : Ref sig .tc := ⟨.hbm, 92, rfl⟩
abbrev main_c_13 : Ref sig .tc := ⟨.hbm, 93, rfl⟩
abbrev main_v66 : Ref sig .tc := ⟨.hbm, 94, rfl⟩
abbrev main_v67 : Ref sig .tc := ⟨.hbm, 95, rfl⟩
abbrev main_c_14 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_c_15 : Ref sig .tc := ⟨.hbm, 102, rfl⟩
abbrev main_v73 : Ref sig .tc := ⟨.hbm, 103, rfl⟩
abbrev main_v74 : Ref sig .tc := ⟨.hbm, 104, rfl⟩
abbrev main_c_16 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_c_17 : Ref sig .tc := ⟨.hbm, 112, rfl⟩
abbrev main_v81 : Ref sig .tc := ⟨.hbm, 113, rfl⟩
abbrev main_v82 : Ref sig .tc := ⟨.hbm, 114, rfl⟩
abbrev main_c_18 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_cst_19 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩

abbrev nD : Nat := 1
abbrev τ : Topo := Topo.v7x

variable {F : FTy → Type} [FloatOps F]

class Facts₀ : Prop where
  transposes_S128x128_S128x128_1_0 : S128x128.Transposes [1, 0] S128x128
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  transposes_S64x128_S128x64_1_0 : S64x128.Transposes [1, 0] S128x64
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  dot_S100000x128_S128x128_S100000x128_1_0_0_1_n_n_wf : DotDims.WF S100000x128 S128x128 S100000x128 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x64_S100000x64_1_0_0_1_n_n_wf : DotDims.WF S100000x128 S128x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

class Facts : Prop extends Facts₀ where

variable [Facts]
-- ==== Proof.Spec.lean ====
/-
  The two-layer graph convolution as ONE function of its argument arrays, written in the host operations both programs share.

  With `src`, `dst : [1700000]` the edge list's two rows each followed by the self-loops `0 … 99999`, a layer is
    `deg  = scatter-add of ones at dst`,  `dinv = where (deg > 0) (rsqrt deg) 0`,  `norm = dinv[src] · dinv[dst]`,
    `propagate h = scatter-add at dst of (h[src] · norm)`   (a negative index counts from the end: it is wrapped once by the row count),
  and the network is
    `out = propagate64 ((relu (propagate128 (x · W1ᵀ) + b1)) · W2ᵀ) + b2`.
  The kernel program computes the two products and the two bias steps in tiled calls and the propagation on the host; the
  reference computes everything on the host.  Each piece below is a definition so that the value proofs can cite the
  propagation as one function and never open it.
-/
import proofs.«123993_j23673859735792_1_alg».proof.Proof.Gen.ReferenceIdeal

noncomputable section

namespace Cert.Gcn

open Idealize.ShloMosaic Cert.ReferenceIdeal Cert.ReferenceIdeal.Facts₀

variable {F : FTy → Type} [FloatOps F]

/-- The edges' source nodes followed by the self-loops. -/
def srcOf (ei : (⟨S2x1600000, .i32⟩ : BufTy).Contents (Elt F)) : (⟨S1700000, .i32⟩ : BufTy).Contents (Elt F) :=
  concatenate S1700000 0 [⟨S1600000, (shapeCast _ (extractStridedSlice S1x1600000 ![0, 0] ei slices_S2x1600000_S1x1600000_0_0) shapeCasts_S1x1600000_S1600000)⟩, ⟨S100000, (iotaInDim S100000 32 0)⟩] concatenates_S1600000_S100000_S1700000_d0

/-- The edges' destination nodes followed by the self-loops. -/
def dstOf (ei : (⟨S2x1600000, .i32⟩ : BufTy).Contents (Elt F)) : (⟨S1700000, .i32⟩ : BufTy).Contents (Elt F) :=
  concatenate S1700000 0 [⟨S1600000, (shapeCast _ (extractStridedSlice S1x1600000 ![1, 0] ei slices_S2x1600000_S1x1600000_1_0) shapeCasts_S1x1600000_S1600000)⟩, ⟨S100000, (iotaInDim S100000 32 0)⟩] concatenates_S1600000_S100000_S1700000_d0

/-- A node index with a negative value wrapped once by the number of nodes. -/
def wrapIx (v : (⟨S1700000, .i32⟩ : BufTy).Contents (Elt F)) : (⟨S1700000, .i32⟩ : BufTy).Contents (Elt F) :=
  select (cmpi .slt v (broadcastInDim S1700000 ![] bcast_S_S1700000 (constantI S_ 32 0#32))) (addi v (broadcastInDim S1700000 ![] bcast_S_S1700000 (constantI S_ 32 100000#32))) v

/-- A node's degree: the number of list entries whose destination it is. -/
def degOf (ei : (⟨S2x1600000, .i32⟩ : BufTy).Contents (Elt F)) : (⟨S100000, .f32⟩ : BufTy).Contents (Elt F) :=
  Host.scatterAdd scatter_S100000_S1700000x1_S1700000_n_0_0_1 (broadcastInDim S100000 ![] bcast_S_S100000 (constant S_ .f32 0x00000000#32)) (broadcastInDim S1700000x1 ![0] bcast_S1700000_S1700000x1_0 (dstOf (F := F) ei)) (broadcastInDim S1700000 ![] bcast_S_S1700000 (constant S_ .f32 0x3F800000#32))

/-- The inverse square root of the degree where it is positive, zero elsewhere. -/
def dinvOf (ei : (⟨S2x1600000, .i32⟩ : BufTy).Contents (Elt F)) : (⟨S100000, .f32⟩ : BufTy).Contents (Elt F) :=
  select (cmpf (F := F) .ogt (degOf ei) (broadcastInDim S100000 ![] bcast_S_S100000 (constant S_ .f32 0x00000000#32))) (Host.rsqrt (degOf ei)) (broadcastInDim S100000 ![] bcast_S_S100000 (id (constant S_ .f32 0x00000000#32)))

/-- An entry's weight: the product of the two end nodes' inverse square-root degrees. -/
def normOf (ei : (⟨S2x1600000, .i32⟩ : BufTy).Contents (Elt F)) : (⟨S1700000, .f32⟩ : BufTy).Contents (Elt F) :=
  mulf (Host.gather gather_S100000_S1700000x1_S1700000_n_0_n_n_0_1_1 (dinvOf ei) (broadcastInDim S1700000x1 ![0] bcast_S1700000_S1700000x1_0 (wrapIx (F := F) (srcOf (F := F) ei)))) (Host.gather gather_S100000_S1700000x1_S1700000_n_0_n_n_0_1_1 (dinvOf ei) (broadcastInDim S1700000x1 ![0] bcast_S1700000_S1700000x1_0 (wrapIx (F := F) (dstOf (F := F) ei))))

/-- The propagation of 128-wide rows: each list entry adds its source row, weighted, to its destination row. -/
def prop128 (ei : (⟨S2x1600000, .i32⟩ : BufTy).Contents (Elt F)) (h : (⟨S100000x128, .f32⟩ : BufTy).Contents (Elt F)) : (⟨S100000x128, .f32⟩ : BufTy).Contents (Elt F) :=
  Host.scatterAdd scatter_S100000x128_S1700000x1_S1700000x128_1_0_0_1 (broadcastInDim S100000x128 ![] bcast_S_S100000x128 (constant S_ .f32 0x00000000#32)) (broadcastInDim S1700000x1 ![0] bcast_S1700000_S1700000x1_0 (dstOf (F := F) ei)) (mulf (Host.gather gather_S100000x128_S1700000x1_S1700000x128_1_0_n_n_0_1_1128 h (broadcastInDim S1700000x1 ![0] bcast_S1700000_S1700000x1_0 (wrapIx (F := F) (srcOf (F := F) ei)))) (broadcastInDim S1700000x128 ![0, 1] bcast_S1700000x1_S1700000x128_0_1 (broadcastInDim S1700000x1 ![0] bcast_S1700000_S1700000x1_0 (normOf ei))))

/-- The propagation of 64-wide rows. -/
def prop64 (ei : (⟨S2x1600000, .i32⟩ : BufTy).Contents (Elt F)) (h : (⟨S100000x64, .f32⟩ : BufTy).Contents (Elt F)) : (⟨S100000x64, .f32⟩ : BufTy).Contents (Elt F) :=
  Host.scatterAdd scatter_S100000x64_S1700000x1_S1700000x64_1_0_0_1 (broadcastInDim S100000x64 ![] bcast_S_S100000x64 (constant S_ .f32 0x00000000#32)) (broadcastInDim S1700000x1 ![0] bcast_S1700000_S1700000x1_0 (dstOf (F := F) ei)) (mulf (Host.gather gather_S100000x64_S1700000x1_S1700000x64_1_0_n_n_0_1_164 h (broadcastInDim S1700000x1 ![0] bcast_S1700000_S1700000x1_0 (wrapIx (F := F) (srcOf (F := F) ei)))) (broadcastInDim S1700000x64 ![0, 1] bcast_S1700000x1_S1700000x64_0_1 (broadcastInDim S1700000x1 ![0] bcast_S1700000_S1700000x1_0 (normOf ei))))

/-- The first layer's product `x · w` (`w` the transposed weight). -/
def lin1 (x : (⟨S100000x128, .f32⟩ : BufTy).Contents (Elt F)) (w : (⟨S128x128, .f32⟩ : BufTy).Contents (Elt F)) : (⟨S100000x128, .f32⟩ : BufTy).Contents (Elt F) :=
  Host.dotGeneral dot_S100000x128_S128x128_S100000x128_1_0_0_1_n_n none x w

/-- The second layer's product. -/
def lin2 (x : (⟨S100000x128, .f32⟩ : BufTy).Contents (Elt F)) (w : (⟨S128x64, .f32⟩ : BufTy).Contents (Elt F)) : (⟨S100000x64, .f32⟩ : BufTy).Contents (Elt F) :=
  Host.dotGeneral dot_S100000x128_S128x64_S100000x64_1_0_0_1_n_n none x w

/-- A bias row added to every row, then clamped below at zero. -/
def biasRelu (a : (⟨S100000x128, .f32⟩ : BufTy).Contents (Elt F)) (b : (⟨S1x128, .f32⟩ : BufTy).Contents (Elt F)) : (⟨S100000x128, .f32⟩ : BufTy).Contents (Elt F) :=
  maximumf (addf a (broadcastInDim S100000x128 ![0, 1] bcast_S1x128_S100000x128_0_1 b)) (broadcastInDim S100000x128 ![] bcast_S_S100000x128 (constant S_ .f32 0x00000000#32))

/-- A bias row added to every row. -/
def biasAdd (a : (⟨S100000x64, .f32⟩ : BufTy).Contents (Elt F)) (b : (⟨S1x64, .f32⟩ : BufTy).Contents (Elt F)) : (⟨S100000x64, .f32⟩ : BufTy).Contents (Elt F) :=
  addf a (broadcastInDim S100000x64 ![0, 1] bcast_S1x64_S100000x64_0_1 b)

/-- The whole network, of the features, the edge list, the transposed weights and the biases as `[1, n]` rows. -/
def net (x : (⟨S100000x128, .f32⟩ : BufTy).Contents (Elt F)) (ei : (⟨S2x1600000, .i32⟩ : BufTy).Contents (Elt F)) (w1 : (⟨S128x128, .f32⟩ : BufTy).Contents (Elt F)) (b1 : (⟨S1x128, .f32⟩ : BufTy).Contents (Elt F))
    (w2 : (⟨S128x64, .f32⟩ : BufTy).Contents (Elt F)) (b2 : (⟨S1x64, .f32⟩ : BufTy).Contents (Elt F)) : (⟨S100000x64, .f32⟩ : BufTy).Contents (Elt F) :=
  biasAdd (prop64 ei (lin2 (biasRelu (prop128 ei (lin1 x w1)) b1) w2)) b2

end Cert.Gcn

end
-- ==== Proof.LibRows.lean ====
/-
  General facts about rows, for any extents and element type.

  * One `[1, b]` row spread over `a` rows by a `broadcast_in_dim` along both axes reads, at `(p, c)`, the row's entry of
    column `c`.
  * A vector `[b]` made a `[1, b]` row in the two spellings programs use — a reshape, and a `broadcast_in_dim` along the last
    axis — is the same row: both read, at column `q`, the vector's entry `q`.
-/
import Idealize.ShloMosaic.Lib.ValueIdx
import Idealize.ShloMosaic.Lib.ValueLayout
import Idealize.ShloMosaic.Lib.Pipeline.Value

noncomputable section

namespace Cert.Lib

open Idealize.ShloMosaic Idealize.ShloMosaic.ValueIdx

/-- One `[1, b]` row spread over `a` rows by `broadcast_in_dim` reads, at `(p, c)`, the row's entry of the column. -/
theorem bcastRow_apply {α : Type} {a b : ℕ} (v : (⟨2, ![1, b]⟩ : Shape).Idx → α)
    (h : (⟨2, ![1, b]⟩ : Shape).BroadcastsInDim ⟨2, ![a, b]⟩ ![0, 1]) (p : Fin a) (c : Fin b) :
    broadcastInDim ⟨2, ![a, b]⟩ ![0, 1] h v (ix2 p c) = v (ix2 (0 : Fin 1) c) := by
  have hc : c.val = if b = 1 then 0 else c.val := by
    split
    · have := c.isLt; omega
    · rfl
  refine broadcastInDim_apply ![0, 1] h v (ix2 p c) (ix2 (0 : Fin 1) c) (fun ax => ?_)
  match ax with
  | ⟨0, _⟩ => show 0 = if (1 : Nat) = 1 then 0 else p.val; rw [if_pos rfl]
  | ⟨1, _⟩ => exact hc

/-- A vector `[b]` reshaped to the row `[1, b]` is the vector broadcast to `[1, b]` along the last axis: both rows read,
    at column `q`, the vector's entry `q`. -/
theorem row_forms {α : Type} {b : ℕ} (v : (⟨1, ![b]⟩ : Shape).Idx → α)
    (h1 : (⟨1, ![b]⟩ : Shape).ShapeCasts ⟨2, ![1, b]⟩) (h2 : (⟨1, ![b]⟩ : Shape).BroadcastsInDim ⟨2, ![1, b]⟩ ![1]) :
    shapeCast ⟨2, ![1, b]⟩ v h1 = broadcastInDim ⟨2, ![1, b]⟩ ![1] h2 v := by
  funext i
  obtain ⟨u, q, rfl⟩ : ∃ (u : Fin 1) (q : Fin b), i = ix2 u q := ⟨i 0, i 1, eq_ix2 i⟩
  have hc : q.val = if b = 1 then 0 else q.val := by
    split
    · have := q.isLt; omega
    · rfl
  rw [shapeCast_a_1a_apply v h1 u q]
  exact (broadcastInDim_apply ![1] h2 v (ix2 u q) (ix1 q) (fun ax => by match ax with | ⟨0, _⟩ => exact hc)).symm

end Cert.Lib

end
-- ==== Proof.KernelRun.lean ====
/-
  The idealized kernel program's run with its RESULT named.

  The program is four tiled calls (a matrix product, a bias-and-clamp, a matrix product, a bias) among stretches of host
  operations.  Its buffers' contents at the end of each stretch and each call are the fold `W0 … W11` of the launch
  memory; every weakly fair execution terminates with each unscoped buffer at `W11`.  Here that run is stated with
  the returned array read at `W11` beside the unchanged arguments; the value proof then computes `W11` at that buffer.
-/
import proofs.«123993_j23673859735792_1_alg».proof.Proof.Gen.KernelIdeal.Frame

set_option maxRecDepth 16384

noncomputable section

namespace Cert.KernelIdeal.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the returned array at the last
    boundary's contents `W11` and the argument arrays as launched: the segments' run, whose last thread state holds every
    unscoped buffer at `W11`, read at the result's buffer as well as at the arguments'. -/
theorem run_main : θ_run defs (onTc (τ := τ) (main (F := F))) ⟨m, fun _ => 0, ρ⟩ (fun r => ∀ c : Dev nD,
      r.2.mem ((c.tc : Thread nD τ).loc main_v93) = W11 m ρ c (Proc.devRef .tc main_v93)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h c =>
      ⟨h c _ (mem_uc main_v93 (by decide)),
       (h c _ (mem_uc main_arg0 (by decide))).trans (W11_main_arg0 m ρ c),
       (h c _ (mem_uc main_arg1 (by decide))).trans (W11_main_arg1 m ρ c),
       (h c _ (mem_uc main_arg2 (by decide))).trans (W11_main_arg2 m ρ c),
       (h c _ (mem_uc main_arg3 (by decide))).trans (W11_main_arg3 m ρ c),
       (h c _ (mem_uc main_arg4 (by decide))).trans (W11_main_arg4 m ρ c),
       (h c _ (mem_uc main_arg5 (by decide))).trans (W11_main_arg5 m ρ c)⟩)

end Cert.KernelIdeal.Whole

end
-- ==== Proof.HostStretches.lean ====
/-
  The host stretches of the kernel program, read as functions of the buffers they start from.

  Between its four tiled calls the program runs three stretches of host operations.  The first transposes the two weight
  matrices.  The second and the third are the graph propagation (the degrees, their inverse square roots, the per-entry
  weights, the gather, the product and the scatter-add) of the preceding product, and a reshape of the layer's bias to
  a `[1, n]` row.  From ANY contents `W` of the buffers, what each stretch leaves in the buffers the next call reads is
  the corresponding piece of the network function of what `W` holds; and a buffer no operation of a stretch writes is
  left as it was.
-/
import proofs.«123993_j23673859735792_1_alg».proof.Proof.Gen.KernelIdeal.Launch
import proofs.«123993_j23673859735792_1_alg».proof.Proof.Spec
import Idealize.ShloMosaic.Lib.StableHlo.Run

set_option maxRecDepth 16384

noncomputable section

namespace Cert.KernelIdeal.Host

open Idealize.ShloMosaic Idealize.ShloMosaic.TcCoe Idealize.SL.Sem Idealize.ShloMosaic.StableHlo
open Cert.KernelIdeal Cert.KernelIdeal.Gen Cert.KernelIdeal.Facts₀

variable {F : FTy → Type} [FloatOps F] (W : Valuation τ sig (Elt F))

/-- A buffer that no operation of the list writes keeps its contents through the list. -/
local macro "keep_through" l:ident : tactic => `(tactic|
  exact StableHlo.after_of_forall_not_mem _ _ (List.forall_iff_forall_mem.mp (by
    simp only [$l:ident, List.Forall, StableHlo.nullary_writes, StableHlo.unary_writes, StableHlo.binary_writes,
      StableHlo.ternary_writes, StableHlo.reshape_writes, Finset.mem_singleton]
    repeat' apply And.intro
    all_goals exact StableHlo.devRef_ne_of_ne (by decide))))

/-! ## The first stretch: the weights transposed -/

theorem weight1 : after hostOps0 W (Proc.devRef .tc main_v0) = transpose S128x128 [1, 0] (W (Proc.devRef .tc main_arg2)) Facts₀.transposes_S128x128_S128x128_1_0 := by
  after_results <;> rfl
theorem weight2 : after hostOps0 W (Proc.devRef .tc main_v1) = transpose S128x64 [1, 0] (W (Proc.devRef .tc main_arg4)) Facts₀.transposes_S64x128_S128x64_1_0 := by
  after_results <;> rfl
theorem keep0_arg0 : after hostOps0 W (Proc.devRef .tc main_arg0) = W (Proc.devRef .tc main_arg0) :=
  (by keep_through hostOps0 : after (hostOps0 (F := F)) _ (Proc.devRef .tc main_arg0) = _)
theorem keep0_arg1 : after hostOps0 W (Proc.devRef .tc main_arg1) = W (Proc.devRef .tc main_arg1) :=
  (by keep_through hostOps0 : after (hostOps0 (F := F)) _ (Proc.devRef .tc main_arg1) = _)
theorem keep0_arg3 : after hostOps0 W (Proc.devRef .tc main_arg3) = W (Proc.devRef .tc main_arg3) :=
  (by keep_through hostOps0 : after (hostOps0 (F := F)) _ (Proc.devRef .tc main_arg3) = _)
theorem keep0_arg5 : after hostOps0 W (Proc.devRef .tc main_arg5) = W (Proc.devRef .tc main_arg5) :=
  (by keep_through hostOps0 : after (hostOps0 (F := F)) _ (Proc.devRef .tc main_arg5) = _)

/-! ## The second stretch: the propagation of the first product, and the first bias as a row -/

set_option maxHeartbeats 4000000 in
theorem agg1 : after hostOps1_2 (after hostOps1_1 (after hostOps1 W)) (Proc.devRef .tc main_v45)
    = Cert.Gcn.prop128 (W (Proc.devRef .tc main_arg1)) (W (Proc.devRef .tc main_v2)) := by
  after_results_simp
  unfold Cert.Gcn.prop128 Cert.Gcn.normOf Cert.Gcn.dinvOf Cert.Gcn.degOf Cert.Gcn.wrapIx Cert.Gcn.srcOf Cert.Gcn.dstOf
  rfl
theorem row1 : after hostOps1_2 (after hostOps1_1 (after hostOps1 W)) (Proc.devRef .tc main_v46)
    = shapeCast S1x128 (W (Proc.devRef .tc main_arg3)) Facts₀.shapeCasts_S128_S1x128 := by
  after_results_simp <;> rfl
theorem keep1_arg1 : after hostOps1_2 (after hostOps1_1 (after hostOps1 W)) (Proc.devRef .tc main_arg1) = W (Proc.devRef .tc main_arg1) :=
  (by keep_through hostOps1_2 : after (hostOps1_2 (F := F)) _ (Proc.devRef .tc main_arg1) = _).trans
    ((by keep_through hostOps1_1 : after (hostOps1_1 (F := F)) _ (Proc.devRef .tc main_arg1) = _).trans
    ((by keep_through hostOps1 : after (hostOps1 (F := F)) _ (Proc.devRef .tc main_arg1) = _)))
theorem keep1_arg5 : after hostOps1_2 (after hostOps1_1 (after hostOps1 W)) (Proc.devRef .tc main_arg5) = W (Proc.devRef .tc main_arg5) :=
  (by keep_through hostOps1_2 : after (hostOps1_2 (F := F)) _ (Proc.devRef .tc main_arg5) = _).trans
    ((by keep_through hostOps1_1 : after (hostOps1_1 (F := F)) _ (Proc.devRef .tc main_arg5) = _).trans
    ((by keep_through hostOps1 : after (hostOps1 (F := F)) _ (Proc.devRef .tc main_arg5) = _)))
theorem keep1_v1 : after hostOps1_2 (after hostOps1_1 (after hostOps1 W)) (Proc.devRef .tc main_v1) = W (Proc.devRef .tc main_v1) :=
  (by keep_through hostOps1_2 : after (hostOps1_2 (F := F)) _ (Proc.devRef .tc main_v1) = _).trans
    ((by keep_through hostOps1_1 : after (hostOps1_1 (F := F)) _ (Proc.devRef .tc main_v1) = _).trans
    ((by keep_through hostOps1 : after (hostOps1 (F := F)) _ (Proc.devRef .tc main_v1) = _)))

/-! ## The third stretch: the propagation of the second product, and the second bias as a row -/

set_option maxHeartbeats 4000000 in
theorem agg2 : after hostOps3_2 (after hostOps3_1 (after hostOps3 W)) (Proc.devRef .tc main_v91)
    = Cert.Gcn.prop64 (W (Proc.devRef .tc main_arg1)) (W (Proc.devRef .tc main_v48)) := by
  after_results_simp
  unfold Cert.Gcn.prop64 Cert.Gcn.normOf Cert.Gcn.dinvOf Cert.Gcn.degOf Cert.Gcn.wrapIx Cert.Gcn.srcOf Cert.Gcn.dstOf
  rfl
theorem row2 : after hostOps3_2 (after hostOps3_1 (after hostOps3 W)) (Proc.devRef .tc main_v92)
    = shapeCast S1x64 (W (Proc.devRef .tc main_arg5)) Facts₀.shapeCasts_S64_S1x64 := by
  after_results_simp <;> rfl

end Cert.KernelIdeal.Host

end
-- ==== Proof.LibPlainMatmul.lean ====
/-
  A plain matrix product read at an index, at the exact (extended-real) instance.

  For operands `l : [M, K]` and `w : [K, N]` and the dimension numbers "contract the left operand's last axis with the
  right operand's first, no batch axis", the product accumulated into the zero array has, at `(r, c)`, the value
  `∑ j, l (r, j) * w (j, c)`: there is no rounding and no accumulation order at this instance, and the one-axis contraction
  index is its one coordinate. Stated for every extent and every pair of operand formats (at this instance an entry is an
  extended real whatever its format).
-/
import Idealize.ShloMosaic.Lib.ValueIdx
import Idealize.ShloMosaic.PureOps.Ideal.Laws

noncomputable section

open scoped BigOperators

namespace Cert.Lib

open Idealize.ShloMosaic Idealize.ShloMosaic.ValueIdx

/-- A plain matrix product `[M, K] × [K, N]` accumulated into zeros, read at `(r, c)`: the sum over the contracted
    index `j` of `l (r, j) * w (j, c)`. -/
theorem matmul_plain_zero_apply {M K N : ℕ} {φ₁ φ₂ : FTy} (prec : Option ContractPrecision)
    (l : FVec Ideal ⟨2, ![M, K]⟩ φ₁) (w : FVec Ideal ⟨2, ![K, N]⟩ φ₂) (r : Fin M) (c : Fin N) :
    matmul (DotDims.plain M K N) prec l w (constant (F := Ideal) ⟨2, ![M, N]⟩ .f32 0x00000000#32) (ix2 r c)
      = ∑ j : Fin K, l (ix2 r j) * w (ix2 j c) := by
  simp only [matmul]
  rw [Ideal.matmul_constant_zero_apply, ← Equiv.sum_comp (contrEquiv1 (DotDims.plain M K N) K rfl rfl).symm]
  refine Finset.sum_congr rfl fun k _ => ?_
  -- the contraction index built from `k` has `k` as its one coordinate
  have hk := contrEquiv1_symm_val (DotDims.plain M K N) K rfl rfl k
  -- the left operand is read at (r, k): its kept axis follows the output's row, its contracted axis the index
  have el : (DotDims.plain M K N).lhsIdx (ix2 r c) ((contrEquiv1 (DotDims.plain M K N) K rfl rfl).symm k) = ix2 r k :=
    funext fun a => Fin.ext (by
      match a with
      | ⟨0, _⟩ => rfl
      | ⟨1, _⟩ => exact ((DotDims.plain M K N).lhsIdx_val_of_single rfl _ _).trans hk)
  -- the right operand is read at (k, c)
  have er : (DotDims.plain M K N).rhsIdx (ix2 r c) ((contrEquiv1 (DotDims.plain M K N) K rfl rfl).symm k) = ix2 k c :=
    funext fun a => Fin.ext (by
      match a with
      | ⟨0, _⟩ => exact ((DotDims.plain M K N).rhsIdx_val_of_single rfl _ _).trans hk
      | ⟨1, _⟩ => rfl)
  rw [el, er]

end Cert.Lib

end
-- ==== Proof.LibIdealLayout.lean ====
/-
  General facts about array operations read at the exact (extended-real) instance, for any shapes.

  * A matrix product accumulated into the zero array is the host's `dot_general` of the same operands: both are, entry by
    entry, the plain sum over the contracted index (there is no rounding and no accumulation order at this instance).
  * One row `v : [b]` spread over all rows of an `[a, b]` array reads, at `(p, c)`, `v c` — in the two spellings programs
    use: a cast to `[1, b]` followed by a vector broadcast, and two `broadcast_in_dim`s (`[b] → [1, b] → [a, b]`).
  * A scalar spread over an array reads the scalar at every index.
-/
import Idealize.ShloMosaic.Lib.ValueIdx
import Idealize.ShloMosaic.Lib.ValueLayout
import Idealize.ShloMosaic.Lib.Pipeline.Value
import Idealize.ShloMosaic.PureOps.Ideal.Laws

noncomputable section

namespace Idealize.ShloMosaic.IdealLayout

open Idealize.ShloMosaic Idealize.ShloMosaic.ValueIdx

/-- At the exact instance a `tpu.matmul` into the zero accumulator IS the host's `dot_general` with the same dimension
    numbers: entry `j` of either is `∑ k, lhs (lhsIdx j k) * rhs (rhsIdx j k)`. -/
theorem matmul_zero_eq_dotGeneral {sl sr so : Shape} {φ₁ φ₂ : FTy} (d : DotDims sl sr so) (prec : Option ContractPrecision)
    (l : FVec Ideal sl φ₁) (r : FVec Ideal sr φ₂) :
    matmul d prec l r (constant (F := Ideal) so .f32 0x00000000#32) = Host.dotGeneral d prec l r := by
  funext j
  simp only [matmul, Host.dotGeneral]
  rw [Ideal.matmul_constant_zero_apply, Ideal.dotGeneral_apply]

/-- The same with the operands' float formats free: a matrix product into zeros of one pair of arrays is the host's
    `dot_general` of any pair with the same entries (at the exact instance an entry is an extended real whatever its
    format, so a body's bf16 casts change nothing). -/
theorem matmul_zero_eq_dotGeneral_of_eq {sl sr so : Shape} {φ₁ φ₂ ψ₁ ψ₂ : FTy} (d : DotDims sl sr so) (prec : Option ContractPrecision)
    (l : FVec Ideal sl φ₁) (r : FVec Ideal sr φ₂) (l' : FVec Ideal sl ψ₁) (r' : FVec Ideal sr ψ₂)
    (hl : ∀ i, (l i : EReal) = l' i) (hr : ∀ i, (r i : EReal) = r' i) :
    (matmul d prec l r (constant (F := Ideal) so .f32 0x00000000#32) : so.Idx → EReal) = Host.dotGeneral d prec l' r' := by
  funext j
  simp only [matmul, Host.dotGeneral]
  rw [Ideal.matmul_constant_zero_apply, Ideal.dotGeneral_apply]
  exact Finset.sum_congr rfl fun k _ => by rw [hl, hr]

/-- A row cast `[b] → [1, b]` and broadcast over `a` rows reads the row's entry of the column. -/
theorem broadcastTo_row_apply {α : Type} {a b : ℕ} (v : (⟨1, ![b]⟩ : Shape).Idx → α)
    (h1 : (⟨1, ![b]⟩ : Shape).ShapeCasts ⟨2, ![1, b]⟩) (h2 : (⟨2, ![1, b]⟩ : Shape).Broadcasts ⟨2, ![a, b]⟩)
    (p : Fin a) (c : Fin b) :
    broadcastTo ⟨2, ![a, b]⟩ (shapeCast ⟨2, ![1, b]⟩ v h1) h2 (ix2 p c) = v (ix1 c) :=
  (broadcastTo_1b_ab_apply _ h2 p c).trans (shapeCast_a_1a_apply v h1 0 c)

/-- Two `broadcast_in_dim`s, `[b] → [1, b]` along the last axis and `[1, b] → [a, b]`, read the row's entry of the column. -/
theorem broadcastInDim_row_apply {α : Type} {a b : ℕ} (v : (⟨1, ![b]⟩ : Shape).Idx → α)
    (h1 : (⟨1, ![b]⟩ : Shape).BroadcastsInDim ⟨2, ![1, b]⟩ ![1])
    (h2 : (⟨2, ![1, b]⟩ : Shape).BroadcastsInDim ⟨2, ![a, b]⟩ ![0, 1])
    (p : Fin a) (c : Fin b) :
    broadcastInDim ⟨2, ![a, b]⟩ ![0, 1] h2 (broadcastInDim ⟨2, ![1, b]⟩ ![1] h1 v) (ix2 p c) = v (ix1 c) := by
  have hc : c.val = if b = 1 then 0 else c.val := by
    split
    · have := c.isLt; omega
    · rfl
  refine (broadcastInDim_apply ![0, 1] h2 _ (ix2 p c) (ix2 (0 : Fin 1) c) (fun ax => ?_)).trans
    (broadcastInDim_apply ![1] h1 v (ix2 (0 : Fin 1) c) (ix1 c) (fun ax => ?_))
  · match ax with
    | ⟨0, _⟩ => show 0 = if (1 : Nat) = 1 then 0 else p.val; rw [if_pos rfl]
    | ⟨1, _⟩ => exact hc
  · match ax with
    | ⟨0, _⟩ => exact hc

/-- A scalar spread over an array by `broadcast_in_dim` reads the scalar everywhere. -/
theorem broadcastInDim_scalar_apply {α : Type} {t : Shape} (dims : Fin 0 → Fin t.rank)
    (h : (⟨0, ![]⟩ : Shape).BroadcastsInDim t dims) (x : (⟨0, ![]⟩ : Shape).Idx → α) (j : t.Idx) :
    broadcastInDim t dims h x j = x (fun a => a.elim0) :=
  broadcastInDim_apply dims h x j (fun a => a.elim0) (fun a => a.elim0)

end Idealize.ShloMosaic.IdealLayout

end
-- ==== Proof.LibIdxExt.lean ====
/-
  General lemmas about array indices, none about a particular program: an index of rank one, two or three is
  determined by the natural numbers its coordinates denote.  A composite of re-indexing maps (slices, reshapes,
  broadcasts) is thereby identified with the index built from explicit coordinates by checking one equation of
  naturals per axis.
-/
import Idealize.ShloMosaic.Lib.ValueIdx

namespace Cert.Lib

open Idealize.ShloMosaic Idealize.ShloMosaic.ValueIdx

/-- A rank-one index whose coordinate denotes the number `a` denotes is the index built from `a`. -/
theorem idx1_ext {n : ℕ} (i : (⟨1, ![n]⟩ : Shape).Idx) (a : Fin n) (h0 : (i 0).val = a.val) : i = ix1 a :=
  funext fun d => Fin.ext (by match d with | ⟨0, _⟩ => exact h0)

/-- A rank-two index whose coordinates denote the numbers `a` and `b` denote is the index built from them. -/
theorem idx2_ext {n0 n1 : ℕ} (i : (⟨2, ![n0, n1]⟩ : Shape).Idx) (a : Fin n0) (b : Fin n1)
    (h0 : (i 0).val = a.val) (h1 : (i 1).val = b.val) : i = ix2 a b :=
  funext fun d => Fin.ext (by match d with | ⟨0, _⟩ => exact h0 | ⟨1, _⟩ => exact h1)

/-- A rank-three index whose coordinates denote the numbers `a`, `b`, `c` denote is the index built from them. -/
theorem idx3_ext {n0 n1 n2 : ℕ} (i : (⟨3, ![n0, n1, n2]⟩ : Shape).Idx) (a : Fin n0) (b : Fin n1) (c : Fin n2)
    (h0 : (i 0).val = a.val) (h1 : (i 1).val = b.val) (h2 : (i 2).val = c.val) : i = ix3 a b c :=
  funext fun d => Fin.ext (by match d with | ⟨0, _⟩ => exact h0 | ⟨1, _⟩ => exact h1 | ⟨2, _⟩ => exact h2)

end Cert.Lib
-- ==== Proof.Lin1.lean ====
/-
  The first layer's matrix product, computed by the tiled call, is the host's product of the whole arrays.

  The call tiles the 100000-row left operand into 20 blocks of 5000 rows; at each block it multiplies the block by the
  whole right operand (both rounded to bf16 on the way in, which at the exact instance changes nothing) into a zero
  accumulator and writes the block's rows of the result.  An entry `(5000·t + r, q)` of the result is therefore
  `∑ j, a (5000·t + r, j) · w (j, q)`: the same entry of the host's product of the whole arrays, and the 20 blocks
  cover every row.
-/
import proofs.«123993_j23673859735792_1_alg».proof.Proof.Gen.KernelIdeal.Frame
import proofs.«123993_j23673859735792_1_alg».proof.Proof.Spec
import proofs.«123993_j23673859735792_1_alg».proof.Proof.LibPlainMatmul
import proofs.«123993_j23673859735792_1_alg».proof.Proof.LibIdealLayout
import proofs.«123993_j23673859735792_1_alg».proof.Proof.LibIdxExt
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Lin1

open Idealize.ShloMosaic Idealize.ShloMosaic.TcCoe Idealize.SL.Sem Idealize.ShloMosaic.ValueIdx
open Idealize.ShloMosaic.Pipeline (Dat Cfg Window)
open Cert.KernelIdeal Cert.KernelIdeal.Gen

variable (V : (c : Dev nD) → (b : Ref sig .tc) → Buf (Elt Ideal) ((c : Thread nD τ).loc b))

theorem offset_zero : (![0, 0] : Fin 2 → Nat) = fun _ => 0 := funext fun a => by fin_cases a <;> rfl

/-- The host's product of the whole arrays read at `(r, q)`: the sum over the contracted index. -/
theorem whole_apply (a : FVec Ideal ⟨2, ![100000, 128]⟩ .f32) (w : FVec Ideal ⟨2, ![128, 128]⟩ .f32) (r : Fin 100000) (q : Fin 128) :
    Cert.Gcn.lin1 (F := Ideal) a w (ix2 r q) = ∑ j : Fin 128, a (ix2 r j) * w (ix2 j q) :=
  (congrFun (IdealLayout.matmul_zero_eq_dotGeneral (DotDims.plain 100000 128 128) none a w).symm (ix2 r q)).trans
    (Cert.Lib.matmul_plain_zero_apply none a w r q)

/-- The body's payload read at `(r, q)` of the block: the block of rows times the whole right operand. -/
theorem payload_apply (x0 : Vec Ideal S5000x128 .f32) (x1 : Vec Ideal S128x128 .f32) (r : Fin 5000) (q : Fin 128) :
    k0_pay1 x0 x1 (ix2 r q) = ∑ j : Fin 128, x0 (ix2 r j) * x1 (ix2 j q) := by
  unfold k0_pay1
  refine (Cert.Lib.matmul_plain_zero_apply none _ _ r q).trans ?_
  refine Finset.sum_congr rfl fun j _ => ?_
  simp only [truncf_apply, shapeCast_self]

/-- The printed index maps over the grid: the row-block windows are at block `t`, the right operand's window at block 0. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point `t` writes back is block `t` of the host's product of the arrays as the call finds them. -/
theorem flushed_eq (c : Dev nD) (t : Fin cfg0.N) :
    (dat0 V c).flushed 2 t = ((cfg0.win 2).blk t).view.read (Elt Ideal) (Cert.Gcn.lin1 (V c main_arg0) (V c main_v0)) := by
  show (cfg0.win 2).cut (grid0.coords t) ((dat0 V c).after 2 t) = _
  rw [after0_2]
  unfold out0_2
  rw [View.canon_unit_zero offset_zero]
  simp only [View.ld_unit_zero (S := S5000x128) offset_zero, View.ld_unit_zero (S := S128x128) offset_zero]
  obtain ⟨e0, e1, e2, e3, e4, e5⟩ := idx_facts t
  have ht : t.val < 20 := lt_of_lt_of_eq t.isLt N_0
  funext y
  obtain ⟨r, q, rfl⟩ : ∃ (r : Fin 5000) (q : Fin 128), y = ix2 r q := ⟨y 0, y 1, eq_ix2 y⟩
  show k0_pay1 (iblk0 V c 0 t) (iblk0 V c 1 t) (ix2 r q) = Cert.Gcn.lin1 (V c main_arg0) (V c main_v0) (((cfg0.win 2).blk t).view.emb (ix2 r q))
  refine (payload_apply (iblk0 V c 0 t) (iblk0 V c 1 t) r q).trans ?_
  have hout : ((cfg0.win 2).blk t).view.emb (ix2 r q) = ix2 (⟨t.val * 5000 + r.val, by omega⟩ : Fin 100000) q :=
    Cert.Lib.idx2_ext _ _ _
      (by show win0_2.index t (0 : Fin 2) * 5000 + 1 * r.val = t.val * 5000 + r.val; omega)
      (by show win0_2.index t (1 : Fin 2) * 128 + 1 * q.val = q.val; omega)
  rw [hout]
  refine ((whole_apply (V c main_arg0) (V c main_v0) _ q).trans ?_).symm
  refine Finset.sum_congr rfl fun j _ => ?_
  have hl : ((cfg0.win 0).blk t).view.emb (ix2 r j) = ix2 (⟨t.val * 5000 + r.val, by omega⟩ : Fin 100000) j :=
    Cert.Lib.idx2_ext _ _ _
      (by show win0_0.index t (0 : Fin 2) * 5000 + 1 * r.val = t.val * 5000 + r.val; omega)
      (by show win0_0.index t (1 : Fin 2) * 128 + 1 * j.val = j.val; omega)
  have hr : ((cfg0.win 1).blk t).view.emb (ix2 j q) = ix2 j q :=
    Cert.Lib.idx2_ext _ _ _
      (by show win0_1.index t (0 : Fin 2) * 128 + 1 * j.val = j.val; omega)
      (by show win0_1.index t (1 : Fin 2) * 128 + 1 * q.val = q.val; omega)
  exact congrArg₂ (· * ·) (congrArg (V c main_arg0) hl).symm (congrArg (V c main_v0) hr).symm

/-- An index of the result is in point `t`'s block iff each coordinate is in the block's range on its axis. -/
theorem mem_blk (t : Fin cfg0.N) (i : S100000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v2).slice (win0_2.rect t)).set ↔ _
  rw [View.set_slice_whole, Rect.mem_set_unit]
  exact Iff.rfl

/-- Every index of the result is in the block of the point its row falls in. -/
theorem cover (i : S100000x128.Idx) : ∃ t : Fin cfg0.N, (cfg0.win 2).flush t = true ∧ i ∈ ((cfg0.win 2).blk t).view.set := by
  have hi0 : (i 0).val < 100000 := (i 0).isLt
  have hi1 : (i 1).val < 128 := (i 1).isLt
  obtain ⟨t0, ht0⟩ : ∃ t0 : Fin cfg0.N, t0.val = (i 0).val / 5000 :=
    ⟨⟨(i 0).val / 5000, lt_of_lt_of_eq (by omega : (i 0).val / 5000 < 20) N_0.symm⟩, rfl⟩
  refine ⟨t0, flush0_2 t0, ?_⟩
  rw [mem_blk]
  obtain ⟨e0, e1, e2, e3, e4, e5⟩ := idx_facts t0
  have e4' : win0_2.index t0 (0 : Fin 2) = (i 0).val / 5000 := e4.trans ht0
  intro a
  match a with
  | ⟨0, _⟩ => show win0_2.index _ (0 : Fin 2) * 5000 ≤ (i 0).val ∧ (i 0).val < win0_2.index _ (0 : Fin 2) * 5000 + 5000; rw [e4']; omega
  | ⟨1, _⟩ => show win0_2.index _ (1 : Fin 2) * 128 ≤ (i 1).val ∧ (i 1).val < win0_2.index _ (1 : Fin 2) * 128 + 128; rw [e5]; omega

/-- THE RESULT ARRAY after the call: the host's product of the two operand arrays as the call finds them. -/
theorem final (c : Dev nD) : (dat0 V c).arrAt 2 cfg0.N = Cert.Gcn.lin1 (V c main_arg0) (V c main_v0) :=
  (dat0 V c).arrAt_eq_of_cover 2 _ (fun t _ => flushed_eq V c t) cover

end Cert.KernelIdeal.Lin1

end
-- ==== Proof.Bias1.lean ====
/-
  The first layer's bias-and-clamp step, computed by the tiled call, is the host's form on the whole arrays.

  The call tiles the 100000-row operand into 20 blocks of 5000 rows; at each block it adds the `[1, 128]` bias row to every
  row of the block and clamps the sum below at zero, and writes the block's rows of the result.  An entry `(5000·t + r, q)` of the result
  is therefore `max (a (5000·t + r, q) + b (0, q)) 0`: the same entry of the host's form (the row broadcast over all rows, added, clamped),
  and the 20 blocks cover every row.
-/
import proofs.«123993_j23673859735792_1_alg».proof.Proof.Gen.KernelIdeal.Frame
import proofs.«123993_j23673859735792_1_alg».proof.Proof.Spec
import proofs.«123993_j23673859735792_1_alg».proof.Proof.LibIdealLayout
import proofs.«123993_j23673859735792_1_alg».proof.Proof.LibIdxExt
import proofs.«123993_j23673859735792_1_alg».proof.Proof.LibRows
import Idealize.ShloMosaic.Lib.Pipeline.Value
import Idealize.ShloMosaic.Lib.ValueIdx
import Idealize.ShloMosaic.Lib.ValueLayout

set_option maxRecDepth 16384

noncomputable section

namespace Cert.KernelIdeal.Bias1

open Idealize.ShloMosaic Idealize.ShloMosaic.TcCoe Idealize.SL.Sem Idealize.ShloMosaic.ValueIdx
open Idealize.ShloMosaic.Pipeline (Dat Cfg Window)
open Cert.KernelIdeal Cert.KernelIdeal.Gen

variable (V : (c : Dev nD) → (b : Ref sig .tc) → Buf (Elt Ideal) ((c : Thread nD τ).loc b))

theorem offset_zero : (![0, 0] : Fin 2 → Nat) = fun _ => 0 := funext fun a => by fin_cases a <;> rfl

/-- The host's form read at `(r, q)`. -/
theorem whole_apply (a : FVec Ideal ⟨2, ![100000, 128]⟩ .f32) (b : FVec Ideal ⟨2, ![1, 128]⟩ .f32) (r : Fin 100000) (q : Fin 128) :
    Cert.Gcn.biasRelu (F := Ideal) a b (ix2 r q) = max (a (ix2 r q) + b (ix2 (0 : Fin 1) q)) (Ideal.ofBits .f32 0x00000000#32) := by
  unfold Cert.Gcn.biasRelu
  show max (a (ix2 r q) + broadcastInDim Cert.ReferenceIdeal.S100000x128 ![0, 1] Cert.ReferenceIdeal.Facts₀.bcast_S1x128_S100000x128_0_1 b (ix2 r q)) (broadcastInDim Cert.ReferenceIdeal.S100000x128 ![] Cert.ReferenceIdeal.Facts₀.bcast_S_S100000x128 (constant (F := Ideal) Cert.ReferenceIdeal.S_ .f32 0x00000000#32) (ix2 r q)) = _
  rw [Cert.Lib.bcastRow_apply b _ r q, IdealLayout.broadcastInDim_scalar_apply]
  rfl

/-- The body's payload read at `(r, q)` of the block. -/
theorem payload_apply (x0 : Vec Ideal S5000x128 .f32) (x1 : Vec Ideal S1x128 .f32) (r : Fin 5000) (q : Fin 128) :
    k1_pay1 x0 x1 (ix2 r q) = max (x0 (ix2 r q) + x1 (ix2 (0 : Fin 1) q)) (Ideal.ofBits .f32 0x00000000#32) := by
  unfold k1_pay1
  show max (shapeCast S5000x128 x0 _ (ix2 r q) + broadcastTo S5000x128 (shapeCast S1x128 x1 _) _ (ix2 r q)) (Scalar.ofBits (F := Ideal) .f32 0x00000000#32) = _
  rw [shapeCast_self, shapeCast_self, broadcastTo_1b_ab_apply]
  rfl

/-- The printed index maps over the grid: the row-block windows are at block `t`, the bias row's window at block 0. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What point `t` writes back is block `t` of the host's form of the arrays as the call finds them. -/
theorem flushed_eq (c : Dev nD) (t : Fin cfg1.N) :
    (dat1 V c).flushed 2 t = ((cfg1.win 2).blk t).view.read (Elt Ideal) (Cert.Gcn.biasRelu (V c main_v45) (V c main_v46)) := by
  show (cfg1.win 2).cut (grid1.coords t) ((dat1 V c).after 2 t) = _
  rw [after1_2]
  unfold out1_2
  rw [View.canon_unit_zero offset_zero]
  simp only [View.ld_unit_zero (S := S5000x128) offset_zero, View.ld_unit_zero (S := S1x128) offset_zero]
  obtain ⟨e0, e1, e2, e3, e4, e5⟩ := idx_facts t
  have ht : t.val < 20 := lt_of_lt_of_eq t.isLt N_1
  funext y
  obtain ⟨r, q, rfl⟩ : ∃ (r : Fin 5000) (q : Fin 128), y = ix2 r q := ⟨y 0, y 1, eq_ix2 y⟩
  show k1_pay1 (iblk1 V c 0 t) (iblk1 V c 1 t) (ix2 r q) = Cert.Gcn.biasRelu (V c main_v45) (V c main_v46) (((cfg1.win 2).blk t).view.emb (ix2 r q))
  refine (payload_apply (iblk1 V c 0 t) (iblk1 V c 1 t) r q).trans ?_
  have hout : ((cfg1.win 2).blk t).view.emb (ix2 r q) = ix2 (⟨t.val * 5000 + r.val, by omega⟩ : Fin 100000) q :=
    Cert.Lib.idx2_ext _ _ _
      (by show win1_2.index t (0 : Fin 2) * 5000 + 1 * r.val = t.val * 5000 + r.val; omega)
      (by show win1_2.index t (1 : Fin 2) * 128 + 1 * q.val = q.val; omega)
  rw [hout]
  refine ((whole_apply (V c main_v45) (V c main_v46) _ q).trans ?_).symm
  have hl : ((cfg1.win 0).blk t).view.emb (ix2 r q) = ix2 (⟨t.val * 5000 + r.val, by omega⟩ : Fin 100000) q :=
    Cert.Lib.idx2_ext _ _ _
      (by show win1_0.index t (0 : Fin 2) * 5000 + 1 * r.val = t.val * 5000 + r.val; omega)
      (by show win1_0.index t (1 : Fin 2) * 128 + 1 * q.val = q.val; omega)
  have hr : ((cfg1.win 1).blk t).view.emb (ix2 (0 : Fin 1) q) = ix2 (0 : Fin 1) q :=
    Cert.Lib.idx2_ext _ _ _
      (by show win1_1.index t (0 : Fin 2) * 1 + 1 * (0 : Fin 1).val = (0 : Fin 1).val; omega)
      (by show win1_1.index t (1 : Fin 2) * 128 + 1 * q.val = q.val; omega)
  exact congrArg₂ (fun u v => max (u + v) _) (congrArg (V c main_v45) hl).symm (congrArg (V c main_v46) hr).symm

/-- An index of the result is in point `t`'s block iff each coordinate is in the block's range on its axis. -/
theorem mem_blk (t : Fin cfg1.N) (i : S100000x128.Idx) :
    i ∈ ((cfg1.win 2).blk t).view.set ↔ ∀ a : Fin 2, win1_2.index t a * S5000x128.size a ≤ (i a).val ∧ (i a).val < win1_2.index t a * S5000x128.size a + S5000x128.size a := by
  show i ∈ ((View.whole main_v47).slice (win1_2.rect t)).set ↔ _
  rw [View.set_slice_whole, Rect.mem_set_unit]
  exact Iff.rfl

/-- Every index of the result is in the block of the point its row falls in. -/
theorem cover (i : S100000x128.Idx) : ∃ t : Fin cfg1.N, (cfg1.win 2).flush t = true ∧ i ∈ ((cfg1.win 2).blk t).view.set := by
  have hi0 : (i 0).val < 100000 := (i 0).isLt
  have hi1 : (i 1).val < 128 := (i 1).isLt
  obtain ⟨t0, ht0⟩ : ∃ t0 : Fin cfg1.N, t0.val = (i 0).val / 5000 :=
    ⟨⟨(i 0).val / 5000, lt_of_lt_of_eq (by omega : (i 0).val / 5000 < 20) N_1.symm⟩, rfl⟩
  refine ⟨t0, flush1_2 t0, ?_⟩
  rw [mem_blk]
  obtain ⟨e0, e1, e2, e3, e4, e5⟩ := idx_facts t0
  have e4' : win1_2.index t0 (0 : Fin 2) = (i 0).val / 5000 := e4.trans ht0
  intro a
  match a with
  | ⟨0, _⟩ => show win1_2.index _ (0 : Fin 2) * 5000 ≤ (i 0).val ∧ (i 0).val < win1_2.index _ (0 : Fin 2) * 5000 + 5000; rw [e4']; omega
  | ⟨1, _⟩ => show win1_2.index _ (1 : Fin 2) * 128 ≤ (i 1).val ∧ (i 1).val < win1_2.index _ (1 : Fin 2) * 128 + 128; rw [e5]; omega

/-- THE RESULT ARRAY after the call: the host's form of the two operand arrays as the call finds them. -/
theorem final (c : Dev nD) : (dat1 V c).arrAt 2 cfg1.N = Cert.Gcn.biasRelu (V c main_v45) (V c main_v46) :=
  (dat1 V c).arrAt_eq_of_cover 2 _ (fun t _ => flushed_eq V c t) cover

end Cert.KernelIdeal.Bias1

end
-- ==== Proof.Lin2.lean ====
/-
  The second layer's matrix product, computed by the tiled call, is the host's product of the whole arrays.

  The call tiles the 100000-row left operand into 20 blocks of 5000 rows; at each block it multiplies the block by the
  whole right operand (both rounded to bf16 on the way in, which at the exact instance changes nothing) into a zero
  accumulator and writes the block's rows of the result.  An entry `(5000·t + r, q)` of the result is therefore
  `∑ j, a (5000·t + r, j) · w (j, q)`: the same entry of the host's product of the whole arrays, and the 20 blocks
  cover every row.
-/
import proofs.«123993_j23673859735792_1_alg».proof.Proof.Gen.KernelIdeal.Frame
import proofs.«123993_j23673859735792_1_alg».proof.Proof.Spec
import proofs.«123993_j23673859735792_1_alg».proof.Proof.LibPlainMatmul
import proofs.«123993_j23673859735792_1_alg».proof.Proof.LibIdealLayout
import proofs.«123993_j23673859735792_1_alg».proof.Proof.LibIdxExt
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Lin2

open Idealize.ShloMosaic Idealize.ShloMosaic.TcCoe Idealize.SL.Sem Idealize.ShloMosaic.ValueIdx
open Idealize.ShloMosaic.Pipeline (Dat Cfg Window)
open Cert.KernelIdeal Cert.KernelIdeal.Gen

variable (V : (c : Dev nD) → (b : Ref sig .tc) → Buf (Elt Ideal) ((c : Thread nD τ).loc b))

theorem offset_zero : (![0, 0] : Fin 2 → Nat) = fun _ => 0 := funext fun a => by fin_cases a <;> rfl

/-- The host's product of the whole arrays read at `(r, q)`: the sum over the contracted index. -/
theorem whole_apply (a : FVec Ideal ⟨2, ![100000, 128]⟩ .f32) (w : FVec Ideal ⟨2, ![128, 64]⟩ .f32) (r : Fin 100000) (q : Fin 64) :
    Cert.Gcn.lin2 (F := Ideal) a w (ix2 r q) = ∑ j : Fin 128, a (ix2 r j) * w (ix2 j q) :=
  (congrFun (IdealLayout.matmul_zero_eq_dotGeneral (DotDims.plain 100000 128 64) none a w).symm (ix2 r q)).trans
    (Cert.Lib.matmul_plain_zero_apply none a w r q)

/-- The body's payload read at `(r, q)` of the block: the block of rows times the whole right operand. -/
theorem payload_apply (x0 : Vec Ideal S5000x128 .f32) (x1 : Vec Ideal S128x64 .f32) (r : Fin 5000) (q : Fin 64) :
    k2_pay1 x0 x1 (ix2 r q) = ∑ j : Fin 128, x0 (ix2 r j) * x1 (ix2 j q) := by
  unfold k2_pay1
  refine (Cert.Lib.matmul_plain_zero_apply none _ _ r q).trans ?_
  refine Finset.sum_congr rfl fun j _ => ?_
  simp only [truncf_apply, shapeCast_self]

/-- The printed index maps over the grid: the row-block windows are at block `t`, the right operand's window at block 0. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What point `t` writes back is block `t` of the host's product of the arrays as the call finds them. -/
theorem flushed_eq (c : Dev nD) (t : Fin cfg2.N) :
    (dat2 V c).flushed 2 t = ((cfg2.win 2).blk t).view.read (Elt Ideal) (Cert.Gcn.lin2 (V c main_v47) (V c main_v1)) := by
  show (cfg2.win 2).cut (grid2.coords t) ((dat2 V c).after 2 t) = _
  rw [after2_2]
  unfold out2_2
  rw [View.canon_unit_zero offset_zero]
  simp only [View.ld_unit_zero (S := S5000x128) offset_zero, View.ld_unit_zero (S := S128x64) offset_zero]
  obtain ⟨e0, e1, e2, e3, e4, e5⟩ := idx_facts t
  have ht : t.val < 20 := lt_of_lt_of_eq t.isLt N_2
  funext y
  obtain ⟨r, q, rfl⟩ : ∃ (r : Fin 5000) (q : Fin 64), y = ix2 r q := ⟨y 0, y 1, eq_ix2 y⟩
  show k2_pay1 (iblk2 V c 0 t) (iblk2 V c 1 t) (ix2 r q) = Cert.Gcn.lin2 (V c main_v47) (V c main_v1) (((cfg2.win 2).blk t).view.emb (ix2 r q))
  refine (payload_apply (iblk2 V c 0 t) (iblk2 V c 1 t) r q).trans ?_
  have hout : ((cfg2.win 2).blk t).view.emb (ix2 r q) = ix2 (⟨t.val * 5000 + r.val, by omega⟩ : Fin 100000) q :=
    Cert.Lib.idx2_ext _ _ _
      (by show win2_2.index t (0 : Fin 2) * 5000 + 1 * r.val = t.val * 5000 + r.val; omega)
      (by show win2_2.index t (1 : Fin 2) * 64 + 1 * q.val = q.val; omega)
  rw [hout]
  refine ((whole_apply (V c main_v47) (V c main_v1) _ q).trans ?_).symm
  refine Finset.sum_congr rfl fun j _ => ?_
  have hl : ((cfg2.win 0).blk t).view.emb (ix2 r j) = ix2 (⟨t.val * 5000 + r.val, by omega⟩ : Fin 100000) j :=
    Cert.Lib.idx2_ext _ _ _
      (by show win2_0.index t (0 : Fin 2) * 5000 + 1 * r.val = t.val * 5000 + r.val; omega)
      (by show win2_0.index t (1 : Fin 2) * 128 + 1 * j.val = j.val; omega)
  have hr : ((cfg2.win 1).blk t).view.emb (ix2 j q) = ix2 j q :=
    Cert.Lib.idx2_ext _ _ _
      (by show win2_1.index t (0 : Fin 2) * 128 + 1 * j.val = j.val; omega)
      (by show win2_1.index t (1 : Fin 2) * 64 + 1 * q.val = q.val; omega)
  exact congrArg₂ (· * ·) (congrArg (V c main_v47) hl).symm (congrArg (V c main_v1) hr).symm

/-- An index of the result is in point `t`'s block iff each coordinate is in the block's range on its axis. -/
theorem mem_blk (t : Fin cfg2.N) (i : S100000x64.Idx) :
    i ∈ ((cfg2.win 2).blk t).view.set ↔ ∀ a : Fin 2, win2_2.index t a * S5000x64.size a ≤ (i a).val ∧ (i a).val < win2_2.index t a * S5000x64.size a + S5000x64.size a := by
  show i ∈ ((View.whole main_v48).slice (win2_2.rect t)).set ↔ _
  rw [View.set_slice_whole, Rect.mem_set_unit]
  exact Iff.rfl

/-- Every index of the result is in the block of the point its row falls in. -/
theorem cover (i : S100000x64.Idx) : ∃ t : Fin cfg2.N, (cfg2.win 2).flush t = true ∧ i ∈ ((cfg2.win 2).blk t).view.set := by
  have hi0 : (i 0).val < 100000 := (i 0).isLt
  have hi1 : (i 1).val < 64 := (i 1).isLt
  obtain ⟨t0, ht0⟩ : ∃ t0 : Fin cfg2.N, t0.val = (i 0).val / 5000 :=
    ⟨⟨(i 0).val / 5000, lt_of_lt_of_eq (by omega : (i 0).val / 5000 < 20) N_2.symm⟩, rfl⟩
  refine ⟨t0, flush2_2 t0, ?_⟩
  rw [mem_blk]
  obtain ⟨e0, e1, e2, e3, e4, e5⟩ := idx_facts t0
  have e4' : win2_2.index t0 (0 : Fin 2) = (i 0).val / 5000 := e4.trans ht0
  intro a
  match a with
  | ⟨0, _⟩ => show win2_2.index _ (0 : Fin 2) * 5000 ≤ (i 0).val ∧ (i 0).val < win2_2.index _ (0 : Fin 2) * 5000 + 5000; rw [e4']; omega
  | ⟨1, _⟩ => show win2_2.index _ (1 : Fin 2) * 64 ≤ (i 1).val ∧ (i 1).val < win2_2.index _ (1 : Fin 2) * 64 + 64; rw [e5]; omega

/-- THE RESULT ARRAY after the call: the host's product of the two operand arrays as the call finds them. -/
theorem final (c : Dev nD) : (dat2 V c).arrAt 2 cfg2.N = Cert.Gcn.lin2 (V c main_v47) (V c main_v1) :=
  (dat2 V c).arrAt_eq_of_cover 2 _ (fun t _ => flushed_eq V c t) cover

end Cert.KernelIdeal.Lin2

end
-- ==== Proof.Bias2.lean ====
/-
  The second layer's bias step, computed by the tiled call, is the host's form on the whole arrays.

  The call tiles the 100000-row operand into 20 blocks of 5000 rows; at each block it adds the `[1, 64]` bias row to every
  row of the block, and writes the block's rows of the result.  An entry `(5000·t + r, q)` of the result
  is therefore `a (5000·t + r, q) + b (0, q)`: the same entry of the host's form (the row broadcast over all rows, added),
  and the 20 blocks cover every row.
-/
import proofs.«123993_j23673859735792_1_alg».proof.Proof.Gen.KernelIdeal.Frame
import proofs.«123993_j23673859735792_1_alg».proof.Proof.Spec
import proofs.«123993_j23673859735792_1_alg».proof.Proof.LibIdealLayout
import proofs.«123993_j23673859735792_1_alg».proof.Proof.LibIdxExt
import proofs.«123993_j23673859735792_1_alg».proof.Proof.LibRows
import Idealize.ShloMosaic.Lib.Pipeline.Value
import Idealize.ShloMosaic.Lib.ValueIdx
import Idealize.ShloMosaic.Lib.ValueLayout

set_option maxRecDepth 16384

noncomputable section

namespace Cert.KernelIdeal.Bias2

open Idealize.ShloMosaic Idealize.ShloMosaic.TcCoe Idealize.SL.Sem Idealize.ShloMosaic.ValueIdx
open Idealize.ShloMosaic.Pipeline (Dat Cfg Window)
open Cert.KernelIdeal Cert.KernelIdeal.Gen

variable (V : (c : Dev nD) → (b : Ref sig .tc) → Buf (Elt Ideal) ((c : Thread nD τ).loc b))

theorem offset_zero : (![0, 0] : Fin 2 → Nat) = fun _ => 0 := funext fun a => by fin_cases a <;> rfl

/-- The host's form read at `(r, q)`. -/
theorem whole_apply (a : FVec Ideal ⟨2, ![100000, 64]⟩ .f32) (b : FVec Ideal ⟨2, ![1, 64]⟩ .f32) (r : Fin 100000) (q : Fin 64) :
    Cert.Gcn.biasAdd (F := Ideal) a b (ix2 r q) = a (ix2 r q) + b (ix2 (0 : Fin 1) q) := by
  unfold Cert.Gcn.biasAdd
  show a (ix2 r q) + broadcastInDim Cert.ReferenceIdeal.S100000x64 ![0, 1] Cert.ReferenceIdeal.Facts₀.bcast_S1x64_S100000x64_0_1 b (ix2 r q) = _
  rw [Cert.Lib.bcastRow_apply b _ r q]

/-- The body's payload read at `(r, q)` of the block. -/
theorem payload_apply (x0 : Vec Ideal S5000x64 .f32) (x1 : Vec Ideal S1x64 .f32) (r : Fin 5000) (q : Fin 64) :
    k3_pay1 x0 x1 (ix2 r q) = x0 (ix2 r q) + x1 (ix2 (0 : Fin 1) q) := by
  unfold k3_pay1
  show shapeCast S5000x64 x0 _ (ix2 r q) + broadcastTo S5000x64 (shapeCast S1x64 x1 _) _ (ix2 r q) = _
  rw [shapeCast_self, shapeCast_self, broadcastTo_1b_ab_apply]

/-- The printed index maps over the grid: the row-block windows are at block `t`, the bias row's window at block 0. -/
theorem idx_facts : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- What point `t` writes back is block `t` of the host's form of the arrays as the call finds them. -/
theorem flushed_eq (c : Dev nD) (t : Fin cfg3.N) :
    (dat3 V c).flushed 2 t = ((cfg3.win 2).blk t).view.read (Elt Ideal) (Cert.Gcn.biasAdd (V c main_v91) (V c main_v92)) := by
  show (cfg3.win 2).cut (grid3.coords t) ((dat3 V c).after 2 t) = _
  rw [after3_2]
  unfold out3_2
  rw [View.canon_unit_zero offset_zero]
  simp only [View.ld_unit_zero (S := S5000x64) offset_zero, View.ld_unit_zero (S := S1x64) offset_zero]
  obtain ⟨e0, e1, e2, e3, e4, e5⟩ := idx_facts t
  have ht : t.val < 20 := lt_of_lt_of_eq t.isLt N_3
  funext y
  obtain ⟨r, q, rfl⟩ : ∃ (r : Fin 5000) (q : Fin 64), y = ix2 r q := ⟨y 0, y 1, eq_ix2 y⟩
  show k3_pay1 (iblk3 V c 0 t) (iblk3 V c 1 t) (ix2 r q) = Cert.Gcn.biasAdd (V c main_v91) (V c main_v92) (((cfg3.win 2).blk t).view.emb (ix2 r q))
  refine (payload_apply (iblk3 V c 0 t) (iblk3 V c 1 t) r q).trans ?_
  have hout : ((cfg3.win 2).blk t).view.emb (ix2 r q) = ix2 (⟨t.val * 5000 + r.val, by omega⟩ : Fin 100000) q :=
    Cert.Lib.idx2_ext _ _ _
      (by show win3_2.index t (0 : Fin 2) * 5000 + 1 * r.val = t.val * 5000 + r.val; omega)
      (by show win3_2.index t (1 : Fin 2) * 64 + 1 * q.val = q.val; omega)
  rw [hout]
  refine ((whole_apply (V c main_v91) (V c main_v92) _ q).trans ?_).symm
  have hl : ((cfg3.win 0).blk t).view.emb (ix2 r q) = ix2 (⟨t.val * 5000 + r.val, by omega⟩ : Fin 100000) q :=
    Cert.Lib.idx2_ext _ _ _
      (by show win3_0.index t (0 : Fin 2) * 5000 + 1 * r.val = t.val * 5000 + r.val; omega)
      (by show win3_0.index t (1 : Fin 2) * 64 + 1 * q.val = q.val; omega)
  have hr : ((cfg3.win 1).blk t).view.emb (ix2 (0 : Fin 1) q) = ix2 (0 : Fin 1) q :=
    Cert.Lib.idx2_ext _ _ _
      (by show win3_1.index t (0 : Fin 2) * 1 + 1 * (0 : Fin 1).val = (0 : Fin 1).val; omega)
      (by show win3_1.index t (1 : Fin 2) * 64 + 1 * q.val = q.val; omega)
  exact congrArg₂ (fun u v => u + v) (congrArg (V c main_v91) hl).symm (congrArg (V c main_v92) hr).symm

/-- An index of the result is in point `t`'s block iff each coordinate is in the block's range on its axis. -/
theorem mem_blk (t : Fin cfg3.N) (i : S100000x64.Idx) :
    i ∈ ((cfg3.win 2).blk t).view.set ↔ ∀ a : Fin 2, win3_2.index t a * S5000x64.size a ≤ (i a).val ∧ (i a).val < win3_2.index t a * S5000x64.size a + S5000x64.size a := by
  show i ∈ ((View.whole main_v93).slice (win3_2.rect t)).set ↔ _
  rw [View.set_slice_whole, Rect.mem_set_unit]
  exact Iff.rfl

/-- Every index of the result is in the block of the point its row falls in. -/
theorem cover (i : S100000x64.Idx) : ∃ t : Fin cfg3.N, (cfg3.win 2).flush t = true ∧ i ∈ ((cfg3.win 2).blk t).view.set := by
  have hi0 : (i 0).val < 100000 := (i 0).isLt
  have hi1 : (i 1).val < 64 := (i 1).isLt
  obtain ⟨t0, ht0⟩ : ∃ t0 : Fin cfg3.N, t0.val = (i 0).val / 5000 :=
    ⟨⟨(i 0).val / 5000, lt_of_lt_of_eq (by omega : (i 0).val / 5000 < 20) N_3.symm⟩, rfl⟩
  refine ⟨t0, flush3_2 t0, ?_⟩
  rw [mem_blk]
  obtain ⟨e0, e1, e2, e3, e4, e5⟩ := idx_facts t0
  have e4' : win3_2.index t0 (0 : Fin 2) = (i 0).val / 5000 := e4.trans ht0
  intro a
  match a with
  | ⟨0, _⟩ => show win3_2.index _ (0 : Fin 2) * 5000 ≤ (i 0).val ∧ (i 0).val < win3_2.index _ (0 : Fin 2) * 5000 + 5000; rw [e4']; omega
  | ⟨1, _⟩ => show win3_2.index _ (1 : Fin 2) * 64 ≤ (i 1).val ∧ (i 1).val < win3_2.index _ (1 : Fin 2) * 64 + 64; rw [e5]; omega

/-- THE RESULT ARRAY after the call: the host's form of the two operand arrays as the call finds them. -/
theorem final (c : Dev nD) : (dat3 V c).arrAt 2 cfg3.N = Cert.Gcn.biasAdd (V c main_v91) (V c main_v92) :=
  (dat3 V c).arrAt_eq_of_cover 2 _ (fun t _ => flushed_eq V c t) cover

end Cert.KernelIdeal.Bias2

end
-- ==== Proof.Chain.lean ====
/-
  The kernel program's result, boundary by boundary.

  The buffers' contents at the boundaries of the program's segments are the fold `W0 … W11`: a host stretch applies its
  operations, a tiled call replaces its result array by what its blocks leave and keeps every other buffer.  Reading the
  fold forwards at the buffers that matter:
    after the first stretch the weights are transposed;
    the first call leaves the product `x · W1ᵀ`;  the second stretch its propagation and the bias row `[1, 128]`;
    the second call leaves the clamped biased propagation;  the third call its product with `W2ᵀ`;
    the third stretch the second propagation and the bias row `[1, 64]`;  the last call adds that row.
  The arguments are never written, so each boundary reads them as launched.  The result buffer therefore ends at the network
  function of the arguments (the biases entering as reshaped rows).
-/
import proofs.«123993_j23673859735792_1_alg».proof.Proof.Gen.KernelIdeal.Frame
import proofs.«123993_j23673859735792_1_alg».proof.Proof.Spec
import proofs.«123993_j23673859735792_1_alg».proof.Proof.HostStretches
import proofs.«123993_j23673859735792_1_alg».proof.Proof.Lin1
import proofs.«123993_j23673859735792_1_alg».proof.Proof.Bias1
import proofs.«123993_j23673859735792_1_alg».proof.Proof.Lin2
import proofs.«123993_j23673859735792_1_alg».proof.Proof.Bias2

set_option maxRecDepth 16384

noncomputable section

namespace Cert.KernelIdeal.Chain

open Idealize.ShloMosaic Idealize.ShloMosaic.TcCoe Idealize.SL.Sem
open Cert.KernelIdeal Cert.KernelIdeal.Gen Cert.KernelIdeal.Facts₀

variable (m : (ℓ : Loc nD τ sig) → Buf (Elt Ideal) ℓ) (ρ : Dev nD → PrngReg) (c : Dev nD)

/-! ## After the first stretch -/

theorem W1_arg0 : W1 m ρ c (Proc.devRef .tc main_arg0) = (m ((c : Thread nD τ).loc main_arg0)) := Host.keep0_arg0 (W0 m ρ c)
theorem W1_arg1 : W1 m ρ c (Proc.devRef .tc main_arg1) = (m ((c : Thread nD τ).loc main_arg1)) := Host.keep0_arg1 (W0 m ρ c)
theorem W1_arg3 : W1 m ρ c (Proc.devRef .tc main_arg3) = (m ((c : Thread nD τ).loc main_arg3)) := Host.keep0_arg3 (W0 m ρ c)
theorem W1_arg5 : W1 m ρ c (Proc.devRef .tc main_arg5) = (m ((c : Thread nD τ).loc main_arg5)) := Host.keep0_arg5 (W0 m ρ c)
theorem W1_v0 : W1 m ρ c (Proc.devRef .tc main_v0) = transpose S128x128 [1, 0] (m ((c : Thread nD τ).loc main_arg2)) Facts₀.transposes_S128x128_S128x128_1_0 := Host.weight1 (W0 m ρ c)
theorem W1_v1 : W1 m ρ c (Proc.devRef .tc main_v1) = (transpose S128x64 [1, 0] (m ((c : Thread nD τ).loc main_arg4)) Facts₀.transposes_S64x128_S128x64_1_0) := Host.weight2 (W0 m ρ c)

/-! ## After the first call -/

theorem W2_v2 : W2 m ρ c (Proc.devRef .tc main_v2) = (Cert.Gcn.lin1 (m ((c : Thread nD τ).loc main_arg0)) (transpose S128x128 [1, 0] (m ((c : Thread nD τ).loc main_arg2)) Facts₀.transposes_S128x128_S128x128_1_0)) := by
  refine (W2_arr m ρ c 2).trans ?_
  rw [Lin1.final (V1 m ρ) c]
  show Cert.Gcn.lin1 (W1 m ρ c (Proc.devRef .tc main_arg0)) (W1 m ρ c (Proc.devRef .tc main_v0)) = _
  rw [W1_arg0, W1_v0]
theorem W2_arg1 : W2 m ρ c (Proc.devRef .tc main_arg1) = (m ((c : Thread nD τ).loc main_arg1)) := (W2_of_ne m ρ c main_arg1 (by decide)).trans (W1_arg1 m ρ c)
theorem W2_arg3 : W2 m ρ c (Proc.devRef .tc main_arg3) = (m ((c : Thread nD τ).loc main_arg3)) := (W2_of_ne m ρ c main_arg3 (by decide)).trans (W1_arg3 m ρ c)
theorem W2_arg5 : W2 m ρ c (Proc.devRef .tc main_arg5) = (m ((c : Thread nD τ).loc main_arg5)) := (W2_of_ne m ρ c main_arg5 (by decide)).trans (W1_arg5 m ρ c)
theorem W2_v1 : W2 m ρ c (Proc.devRef .tc main_v1) = (transpose S128x64 [1, 0] (m ((c : Thread nD τ).loc main_arg4)) Facts₀.transposes_S64x128_S128x64_1_0) := (W2_of_ne m ρ c main_v1 (by decide)).trans (W1_v1 m ρ c)

/-! ## After the second stretch -/

theorem W5_v45 : W5 m ρ c (Proc.devRef .tc main_v45) = (Cert.Gcn.prop128 (m ((c : Thread nD τ).loc main_arg1)) (Cert.Gcn.lin1 (m ((c : Thread nD τ).loc main_arg0)) (transpose S128x128 [1, 0] (m ((c : Thread nD τ).loc main_arg2)) Facts₀.transposes_S128x128_S128x128_1_0))) := by
  refine (Host.agg1 (W2 m ρ c)).trans ?_
  rw [W2_arg1, W2_v2]
theorem W5_v46 : W5 m ρ c (Proc.devRef .tc main_v46) = (shapeCast S1x128 (m ((c : Thread nD τ).loc main_arg3)) Facts₀.shapeCasts_S128_S1x128) := by
  refine (Host.row1 (W2 m ρ c)).trans ?_
  rw [W2_arg3]
theorem W5_arg1 : W5 m ρ c (Proc.devRef .tc main_arg1) = (m ((c : Thread nD τ).loc main_arg1)) := (Host.keep1_arg1 (W2 m ρ c)).trans (W2_arg1 m ρ c)
theorem W5_arg5 : W5 m ρ c (Proc.devRef .tc main_arg5) = (m ((c : Thread nD τ).loc main_arg5)) := (Host.keep1_arg5 (W2 m ρ c)).trans (W2_arg5 m ρ c)
theorem W5_v1 : W5 m ρ c (Proc.devRef .tc main_v1) = (transpose S128x64 [1, 0] (m ((c : Thread nD τ).loc main_arg4)) Facts₀.transposes_S64x128_S128x64_1_0) := (Host.keep1_v1 (W2 m ρ c)).trans (W2_v1 m ρ c)

/-! ## After the second call -/

theorem W6_v47 : W6 m ρ c (Proc.devRef .tc main_v47) = (Cert.Gcn.biasRelu (Cert.Gcn.prop128 (m ((c : Thread nD τ).loc main_arg1)) (Cert.Gcn.lin1 (m ((c : Thread nD τ).loc main_arg0)) (transpose S128x128 [1, 0] (m ((c : Thread nD τ).loc main_arg2)) Facts₀.transposes_S128x128_S128x128_1_0))) (shapeCast S1x128 (m ((c : Thread nD τ).loc main_arg3)) Facts₀.shapeCasts_S128_S1x128)) := by
  refine (W6_arr m ρ c 2).trans ?_
  rw [Bias1.final (V5 m ρ) c]
  show Cert.Gcn.biasRelu (W5 m ρ c (Proc.devRef .tc main_v45)) (W5 m ρ c (Proc.devRef .tc main_v46)) = _
  rw [W5_v45, W5_v46]
theorem W6_arg1 : W6 m ρ c (Proc.devRef .tc main_arg1) = (m ((c : Thread nD τ).loc main_arg1)) := (W6_of_ne m ρ c main_arg1 (by decide)).trans (W5_arg1 m ρ c)
theorem W6_arg5 : W6 m ρ c (Proc.devRef .tc main_arg5) = (m ((c : Thread nD τ).loc main_arg5)) := (W6_of_ne m ρ c main_arg5 (by decide)).trans (W5_arg5 m ρ c)
theorem W6_v1 : W6 m ρ c (Proc.devRef .tc main_v1) = (transpose S128x64 [1, 0] (m ((c : Thread nD τ).loc main_arg4)) Facts₀.transposes_S64x128_S128x64_1_0) := (W6_of_ne m ρ c main_v1 (by decide)).trans (W5_v1 m ρ c)

/-! ## After the third call -/

theorem W7_v48 : W7 m ρ c (Proc.devRef .tc main_v48) = (Cert.Gcn.lin2 (Cert.Gcn.biasRelu (Cert.Gcn.prop128 (m ((c : Thread nD τ).loc main_arg1)) (Cert.Gcn.lin1 (m ((c : Thread nD τ).loc main_arg0)) (transpose S128x128 [1, 0] (m ((c : Thread nD τ).loc main_arg2)) Facts₀.transposes_S128x128_S128x128_1_0))) (shapeCast S1x128 (m ((c : Thread nD τ).loc main_arg3)) Facts₀.shapeCasts_S128_S1x128)) (transpose S128x64 [1, 0] (m ((c : Thread nD τ).loc main_arg4)) Facts₀.transposes_S64x128_S128x64_1_0)) := by
  refine (W7_arr m ρ c 2).trans ?_
  rw [Lin2.final (V6 m ρ) c]
  show Cert.Gcn.lin2 (W6 m ρ c (Proc.devRef .tc main_v47)) (W6 m ρ c (Proc.devRef .tc main_v1)) = _
  rw [W6_v47, W6_v1]
theorem W7_arg1 : W7 m ρ c (Proc.devRef .tc main_arg1) = (m ((c : Thread nD τ).loc main_arg1)) := (W7_of_ne m ρ c main_arg1 (by decide)).trans (W6_arg1 m ρ c)
theorem W7_arg5 : W7 m ρ c (Proc.devRef .tc main_arg5) = (m ((c : Thread nD τ).loc main_arg5)) := (W7_of_ne m ρ c main_arg5 (by decide)).trans (W6_arg5 m ρ c)

/-! ## After the third stretch -/

theorem W10_v91 : W10 m ρ c (Proc.devRef .tc main_v91) = (Cert.Gcn.prop64 (m ((c : Thread nD τ).loc main_arg1)) (Cert.Gcn.lin2 (Cert.Gcn.biasRelu (Cert.Gcn.prop128 (m ((c : Thread nD τ).loc main_arg1)) (Cert.Gcn.lin1 (m ((c : Thread nD τ).loc main_arg0)) (transpose S128x128 [1, 0] (m ((c : Thread nD τ).loc main_arg2)) Facts₀.transposes_S128x128_S128x128_1_0))) (shapeCast S1x128 (m ((c : Thread nD τ).loc main_arg3)) Facts₀.shapeCasts_S128_S1x128)) (transpose S128x64 [1, 0] (m ((c : Thread nD τ).loc main_arg4)) Facts₀.transposes_S64x128_S128x64_1_0))) := by
  refine (Host.agg2 (W7 m ρ c)).trans ?_
  rw [W7_arg1, W7_v48]
theorem W10_v92 : W10 m ρ c (Proc.devRef .tc main_v92) = (shapeCast S1x64 (m ((c : Thread nD τ).loc main_arg5)) Facts₀.shapeCasts_S64_S1x64) := by
  refine (Host.row2 (W7 m ρ c)).trans ?_
  rw [W7_arg5]

/-! ## The result -/

/-- The returned array ends at the network function of the arguments, the biases entering as reshaped rows. -/
theorem result_eq : W11 m ρ c (Proc.devRef .tc main_v93)
    = Cert.Gcn.net (m ((c : Thread nD τ).loc main_arg0)) (m ((c : Thread nD τ).loc main_arg1)) (transpose S128x128 [1, 0] (m ((c : Thread nD τ).loc main_arg2)) Facts₀.transposes_S128x128_S128x128_1_0) (shapeCast S1x128 (m ((c : Thread nD τ).loc main_arg3)) Facts₀.shapeCasts_S128_S1x128) (transpose S128x64 [1, 0] (m ((c : Thread nD τ).loc main_arg4)) Facts₀.transposes_S64x128_S128x64_1_0) (shapeCast S1x64 (m ((c : Thread nD τ).loc main_arg5)) Facts₀.shapeCasts_S64_S1x64) := by
  refine (W11_arr m ρ c 2).trans ?_
  rw [Bias2.final (V10 m ρ) c]
  show Cert.Gcn.biasAdd (W10 m ρ c (Proc.devRef .tc main_v91)) (W10 m ρ c (Proc.devRef .tc main_v92)) = _
  rw [W10_v91, W10_v92]
  rfl

end Cert.KernelIdeal.Chain

end
-- ==== Proof.RefValue.lean ====
/-
  The reference program's result is the network function of its arguments.

  The reference's run ends with its result at the composed term of all its host operations.  That term is, piece by
  piece, the network function: the first product, the propagation, the bias row (here spread from `[128]` to `[1, 128]`
  by a broadcast) added and clamped, the second product, the propagation again and the second bias row added.  Nothing is
  computed: the two terms are the same tree of operations once the definitions are opened.
-/
import proofs.«123993_j23673859735792_1_alg».proof.Proof.RefRun
import proofs.«123993_j23673859735792_1_alg».proof.Proof.Spec

set_option maxRecDepth 16384

noncomputable section

namespace Cert.ReferenceIdeal.RefValue

open Cert.ReferenceIdeal Cert.ReferenceIdeal.Facts₀ Idealize.ShloMosaic Idealize.ShloMosaic.TcCoe Idealize.SL.Sem

variable {F : FTy → Type} [FloatOps F]

set_option maxHeartbeats 4000000 in
/-- The composed term of the reference's operations is the network function of the argument arrays (the weights transposed,
    the biases as rows). -/
theorem result_eq (m : (ℓ : Loc nD τ sig) → Buf (Elt F) ℓ) (c : Dev nD) :
    Cert.ReferenceIdeal.ValueP.res_main_v96 m c
      = Cert.Gcn.net (m ((c.tc : Thread nD τ).loc main_arg0)) (m ((c.tc : Thread nD τ).loc main_arg1))
          (transpose S128x128 [1, 0] (m ((c.tc : Thread nD τ).loc main_arg2)) transposes_S128x128_S128x128_1_0)
          (broadcastInDim S1x128 ![1] bcast_S128_S1x128_1 (m ((c.tc : Thread nD τ).loc main_arg3)))
          (transpose S128x64 [1, 0] (m ((c.tc : Thread nD τ).loc main_arg4)) transposes_S64x128_S128x64_1_0)
          (broadcastInDim S1x64 ![1] bcast_S64_S1x64_1 (m ((c.tc : Thread nD τ).loc main_arg5))) := by
  unfold Cert.ReferenceIdeal.ValueP.res_main_v96 Cert.Gcn.net Cert.Gcn.biasAdd Cert.Gcn.prop64 Cert.Gcn.lin2 Cert.Gcn.biasRelu
    Cert.Gcn.prop128 Cert.Gcn.lin1 Cert.Gcn.normOf Cert.Gcn.dinvOf Cert.Gcn.degOf Cert.Gcn.wrapIx Cert.Gcn.srcOf Cert.Gcn.dstOf
  rfl

end Cert.ReferenceIdeal.RefValue

end
-- ==== Proof.lean ====
/-
  A two-layer graph convolution: the tiled kernel program against its host-only reference, over the extended reals.

  Both programs compute `out = P ((relu (P (x · W1ᵀ) + b1)) · W2ᵀ) + b2`, where `P` is the normalised propagation over the
  edge list with self-loops (scatter-add at the destinations of the source rows weighted by the two end nodes' inverse
  square-root degrees).  The kernel program computes the two products and the two bias steps in tiled calls of 20 row
  blocks each (the operands rounded to bf16 on the way into a product, which is the identity at the exact instance) and
  the propagation by host operations; the reference computes every step by host operations.

  * Each tiled call's result array is the corresponding host operation of the whole arrays the call finds: a block's
    entry is the same sum, or the same sum and maximum, as the whole array's entry, and the blocks cover the rows.
  * The propagation is the same composition of host operations in both programs, so it is carried as one function of the
    edge list and the rows and never opened.
  * The kernel program reshapes a bias `[n]` to the row `[1, n]` where the reference broadcasts it; the two rows are equal
    entry by entry.
  Hence both results are one function of the arguments, and no law of the extended reals beyond equality of the same
  expression is needed: the precondition (finite inputs) is not used.  The idealization rewrote nothing, so the
  preservation claim is empty.
-/
import proofs.«123993_j23673859735792_1_alg».proof.Defs
import proofs.«123993_j23673859735792_1_alg».proof.Proof.Gen.Kernel
import proofs.«123993_j23673859735792_1_alg».proof.Proof.Gen.Kernel.Skeleton
import proofs.«123993_j23673859735792_1_alg».proof.Proof.Gen.Kernel.Launch
import proofs.«123993_j23673859735792_1_alg».proof.Proof.Gen.Kernel.Points
import proofs.«123993_j23673859735792_1_alg».proof.Proof.Gen.Kernel.Frame
import proofs.«123993_j23673859735792_1_alg».proof.Proof.Gen.KernelIdeal
import proofs.«123993_j23673859735792_1_alg».proof.Proof.Gen.KernelIdeal.Skeleton
import proofs.«123993_j23673859735792_1_alg».proof.Proof.Gen.KernelIdeal.Launch
import proofs.«123993_j23673859735792_1_alg».proof.Proof.Gen.KernelIdeal.Points
import proofs.«123993_j23673859735792_1_alg».proof.Proof.Gen.KernelIdeal.Frame
import proofs.«123993_j23673859735792_1_alg».proof.Proof.Gen.ReferenceIdeal
import proofs.«123993_j23673859735792_1_alg».proof.Proof.Gen.Pre_finite_inputs
import proofs.«123993_j23673859735792_1_alg».proof.Proof.Spec
import proofs.«123993_j23673859735792_1_alg».proof.Proof.LibRows
import proofs.«123993_j23673859735792_1_alg».proof.Proof.KernelRun
import proofs.«123993_j23673859735792_1_alg».proof.Proof.Chain
import proofs.«123993_j23673859735792_1_alg».proof.Proof.RefRun
import proofs.«123993_j23673859735792_1_alg».proof.Proof.RefValue
import Idealize.ShloMosaic.Adequacy
import Idealize.ShloMosaic.Init
import Idealize.ShloMosaic.Lib.ValueIdx
import Idealize.ShloMosaic.Lib.ValueLayout
import Idealize.ShloMosaic.Lib.Pipeline.Value

set_option maxRecDepth 16384

noncomputable section

namespace Cert.Proof

open Idealize.ShloMosaic Idealize.ShloMosaic.TcCoe Idealize.SL.Sem Idealize.ShloMosaic.ValueIdx

theorem frame_kernel : Cert.frame_Kernel := fun m ρ _ => Cert.Kernel.Gen.frame m ρ

theorem frame_kernelIdeal : Cert.frame_KernelIdeal := fun m ρ _ => Cert.KernelIdeal.Gen.frame m ρ

/-- The reference has no tiled call: its frame is its run with the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- The two idealized programs end with the same result: the network function of the (agreeing) arguments. -/
theorem algebraic : Cert.algebraic_KernelIdeal_ReferenceIdeal := by
  intro m ρ m' ρ' _ hagree
  refine ⟨fun c => Cert.Gcn.net (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      (transpose Cert.KernelIdeal.S128x128 [1, 0] (m ((c.tc : Thread Cert.KernelIdeal.nD Cert.KernelIdeal.τ).loc Cert.KernelIdeal.main_arg2)) Cert.KernelIdeal.Facts₀.transposes_S128x128_S128x128_1_0)
      (shapeCast Cert.KernelIdeal.S1x128 (m ((c.tc : Thread Cert.KernelIdeal.nD Cert.KernelIdeal.τ).loc Cert.KernelIdeal.main_arg3)) Cert.KernelIdeal.Facts₀.shapeCasts_S128_S1x128)
      (transpose Cert.KernelIdeal.S128x64 [1, 0] (m ((c.tc : Thread Cert.KernelIdeal.nD Cert.KernelIdeal.τ).loc Cert.KernelIdeal.main_arg4)) Cert.KernelIdeal.Facts₀.transposes_S64x128_S128x64_1_0)
      (shapeCast Cert.KernelIdeal.S1x64 (m ((c.tc : Thread Cert.KernelIdeal.nD Cert.KernelIdeal.τ).loc Cert.KernelIdeal.main_arg5)) Cert.KernelIdeal.Facts₀.shapeCasts_S64_S1x64), ?_, ?_⟩
  · exact (θ_run Cert.KernelIdeal.defs _ _).mono
      (fun r h c => ⟨(h c).1.trans (Cert.KernelIdeal.Chain.result_eq m ρ c), (h c).2⟩)
      (Cert.KernelIdeal.Whole.run_main (F := Ideal) m ρ)
  · refine (θ_run Cert.ReferenceIdeal.defs _ _).mono (fun _ h c => ⟨(h c).1.trans ?_, (h c).2⟩)
      (Cert.ReferenceIdeal.ValueP.run (F := Ideal) m' ρ')
    rw [Cert.ReferenceIdeal.RefValue.result_eq, (hagree c).1, (hagree c).2.1, (hagree c).2.2.1, (hagree c).2.2.2.1,
      (hagree c).2.2.2.2.1, (hagree c).2.2.2.2.2]
    have e1 : shapeCast Cert.KernelIdeal.S1x128 (m ((c.tc : Thread Cert.KernelIdeal.nD Cert.KernelIdeal.τ).loc Cert.KernelIdeal.main_arg3)) Cert.KernelIdeal.Facts₀.shapeCasts_S128_S1x128
        = broadcastInDim Cert.ReferenceIdeal.S1x128 ![1] Cert.ReferenceIdeal.Facts₀.bcast_S128_S1x128_1 (m ((c.tc : Thread Cert.KernelIdeal.nD Cert.KernelIdeal.τ).loc Cert.KernelIdeal.main_arg3)) := Cert.Lib.row_forms _ _ _
    have e2 : shapeCast Cert.KernelIdeal.S1x64 (m ((c.tc : Thread Cert.KernelIdeal.nD Cert.KernelIdeal.τ).loc Cert.KernelIdeal.main_arg5)) Cert.KernelIdeal.Facts₀.shapeCasts_S64_S1x64
        = broadcastInDim Cert.ReferenceIdeal.S1x64 ![1] Cert.ReferenceIdeal.Facts₀.bcast_S64_S1x64_1 (m ((c.tc : Thread Cert.KernelIdeal.nD Cert.KernelIdeal.τ).loc Cert.KernelIdeal.main_arg5)) := Cert.Lib.row_forms _ _ _
    show _ = Cert.Gcn.net (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (transpose Cert.KernelIdeal.S128x128 [1, 0] (m ((c.tc : Thread Cert.KernelIdeal.nD Cert.KernelIdeal.τ).loc Cert.KernelIdeal.main_arg2)) Cert.KernelIdeal.Facts₀.transposes_S128x128_S128x128_1_0) (shapeCast Cert.KernelIdeal.S1x128 (m ((c.tc : Thread Cert.KernelIdeal.nD Cert.KernelIdeal.τ).loc Cert.KernelIdeal.main_arg3)) Cert.KernelIdeal.Facts₀.shapeCasts_S128_S1x128) (transpose Cert.KernelIdeal.S128x64 [1, 0] (m ((c.tc : Thread Cert.KernelIdeal.nD Cert.KernelIdeal.τ).loc Cert.KernelIdeal.main_arg4)) Cert.KernelIdeal.Facts₀.transposes_S64x128_S128x64_1_0) (shapeCast Cert.KernelIdeal.S1x64 (m ((c.tc : Thread Cert.KernelIdeal.nD Cert.KernelIdeal.τ).loc Cert.KernelIdeal.main_arg5)) Cert.KernelIdeal.Facts₀.shapeCasts_S64_S1x64)
    rw [e1, e2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
